-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x64 .f32) (main_arg10 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x64 .f32) (main_arg10 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S1x64 : Shape := ⟨2, ![1, 64]⟩
abbrev S10000x128 : Shape := ⟨2, ![10000, 128]⟩
abbrev S10000x1 : Shape := ⟨2, ![10000, 1]⟩
abbrev S1600000x128 : Shape := ⟨2, ![1600000, 128]⟩
abbrev S100000x64 : Shape := ⟨2, ![100000, 64]⟩
abbrev S10000x64 : Shape := ⟨2, ![10000, 64]⟩
abbrev S1600000x64 : Shape := ⟨2, ![1600000, 64]⟩

abbrev nBuf : Space → Nat
  | .hbm => 98
  | .vmem => 44
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x1, .f32⟩
  | .hbm, ⟨33, _⟩ => ⟨S128x128, .bf16⟩
  | .hbm, ⟨34, _⟩ => ⟨S128x128, .bf16⟩
  | .hbm, ⟨35, _⟩ => ⟨S128x128, .bf16⟩
  | .hbm, ⟨36, _⟩ => ⟨S128x64, .bf16⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x64, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S100000x128, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x128, .f32⟩
  | .hbm, ⟨79, _⟩ => ⟨S_, .f32⟩
  | .hbm, ⟨80, _⟩ => ⟨S100000x128, .f32⟩
  | .hbm, ⟨81, _⟩ => ⟨S1600000x1, .i32⟩
  | .hbm, ⟨82, _⟩ => ⟨S100000x128, .f32⟩
  | .hbm, ⟨83, _⟩ => ⟨S100000x64, .f32⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x64, .f32⟩
  | .hbm, ⟨93, _⟩ => ⟨S_, .f32⟩
  | .hbm, ⟨94, _⟩ => ⟨S100000x64, .f32⟩
  | .hbm, ⟨95, _⟩ => ⟨S1600000x1, .i32⟩
  | .hbm, ⟨96, _⟩ => ⟨S100000x64, .f32⟩
  | .hbm, ⟨97, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S128x128, .bf16⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x1, .f32⟩
  | .local _ .vmem, ⟨10, _⟩ => ⟨S10000x1, .f32⟩
  | .local _ .vmem, ⟨11, _⟩ => ⟨S10000x1, .f32⟩
  | .local _ .vmem, ⟨12, _⟩ => ⟨S10000x1, .f32⟩
  | .local _ .vmem, ⟨13, _⟩ => ⟨S1x128, .f32⟩
  | .local _ .vmem, ⟨14, _⟩ => ⟨S128x128, .bf16⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x1, .f32⟩
  | .local _ .vmem, ⟨20, _⟩ => ⟨S10000x1, .f32⟩
  | .local _ .vmem, ⟨21, _⟩ => ⟨S10000x1, .f32⟩
  | .local _ .vmem, ⟨22, _⟩ => ⟨S10000x1, .f32⟩
  | .local _ .vmem, ⟨23, _⟩ => ⟨S1x128, .f32⟩
  | .local _ .vmem, ⟨24, _⟩ => ⟨S128x128, .bf16⟩
  | .local _ .vmem, ⟨25, _⟩ => ⟨S10000x128, .f32⟩
  | .local _ .vmem, ⟨26, _⟩ => ⟨S10000x128, .f32⟩
  | .local _ .vmem, ⟨27, _⟩ => ⟨S10000x128, .f32⟩
  | .local _ .vmem, ⟨28, _⟩ => ⟨S10000x128, .f32⟩
  | .local _ .vmem, ⟨29, _⟩ => ⟨S10000x1, .f32⟩
  | .local _ .vmem, ⟨30, _⟩ => ⟨S10000x1, .f32⟩
  | .local _ .vmem, ⟨31, _⟩ => ⟨S10000x1, .f32⟩
  | .local _ .vmem, ⟨32, _⟩ => ⟨S10000x1, .f32⟩
  | .local _ .vmem, ⟨33, _⟩ => ⟨S1x128, .f32⟩
  | .local _ .vmem, ⟨34, _⟩ => ⟨S128x64, .bf16⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x1, .f32⟩
  | .local _ .vmem, ⟨40, _⟩ => ⟨S10000x1, .f32⟩
  | .local _ .vmem, ⟨41, _⟩ => ⟨S1x64, .f32⟩
  | .local _ .vmem, ⟨42, _⟩ => ⟨S10000x64, .f32⟩
  | .local _ .vmem, ⟨43, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v7 : Ref sig .tc := ⟨.hbm, 24, rfl⟩
abbrev main_v8 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_9 : Ref sig .tc := ⟨.hbm, 70, rfl⟩
abbrev main_v44 : Ref sig .tc := ⟨.hbm, 71, rfl⟩
abbrev main_v45 : Ref sig .tc := ⟨.hbm, 72, rfl⟩
abbrev main_c_10 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_11 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_c_12 : Ref sig .tc := ⟨.hbm, 84, rfl⟩
abbrev main_v55 : Ref sig .tc := ⟨.hbm, 85, rfl⟩
abbrev main_v56 : Ref sig .tc := ⟨.hbm, 86, rfl⟩
abbrev main_c_13 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_14 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg5_1 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg1_1 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg3_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem5_1 : DmaSem sig := 36
abbrev cc4_sem0_0 : DmaSem sig := 37
abbrev cc4_sem0_1 : DmaSem sig := 38
abbrev cc4_sem1_0 : DmaSem sig := 39
abbrev cc4_sem1_1 : DmaSem sig := 40
abbrev cc4_sem2_0 : DmaSem sig := 41
abbrev cc4_sem3_0 : DmaSem sig := 42
abbrev cc4_sem3_1 : DmaSem sig := 43

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x64 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  shapeCasts_S128_S1x128 : S128.ShapeCasts S1x128
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S100000x128 : S_.BroadcastsInDim S100000x128 (![] : Fin 0 → Fin S100000x128.rank)
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  shapeCasts_S10000x64_S10000x64 : S10000x64.ShapeCasts S10000x64
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1600000x1_S1600000_n_0_0_1_wf : ScatterDims.WF S100000 S1600000x1 S1600000 [] [0] [0] 1
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .f32 = 32 ∨ (Rect.block (s := S100000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S100000x128.size a
  hwx2_5 : ∀ i : grid2.Coords, EltTy.bits .f32 = 32 ∨ (Rect.block (s := S100000x128) S10000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x64.size a ≤ S128x64.size a
  hwx3_4 : ∀ i : grid3.Coords, EltTy.bits .bf16 = 32 ∨ (Rect.block (s := S128x64) S128x64.size (cc3_transform_4 i) (hinb3_4 i)).WholeWords (EltTy.packing .bf16)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S100000x1.size a
  hwx4_1 : ∀ i : grid4.Coords, EltTy.bits .f32 = 32 ∨ (Rect.block (s := S100000x1) S10000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S100000x64.size a
  hwx4_3 : ∀ i : grid4.Coords, EltTy.bits .f32 = 32 ∨ (Rect.block (s := S100000x64) S10000x64.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v42) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v18) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v15) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S10000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v53) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v19) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v16) S128x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v54) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v64) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v12) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v20) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S10000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 132
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S_, .f32⟩
  | 12 => ⟨S1600000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S_, .f32⟩
  | 23 => ⟨S100000, .f32⟩
  | 24 => ⟨S100000, .f32⟩
  | 25 => ⟨S100000, .f32⟩
  | 26 => ⟨S_, .f32⟩
  | 27 => ⟨S_, .f32⟩
  | 28 => ⟨S100000, .f32⟩
  | 29 => ⟨S100000, .f32⟩
  | 30 => ⟨S100000, .f32⟩
  | 31 => ⟨S100000x1, .f32⟩
  | 32 => ⟨S100000x128, .f32⟩
  | 33 => ⟨S100000x128, .f32⟩
  | 34 => ⟨S100000x128, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x128, .f32⟩
  | 44 => ⟨S_, .f32⟩
  | 45 => ⟨S100000x128, .f32⟩
  | 46 => ⟨S1600000x1, .i32⟩
  | 47 => ⟨S100000x128, .f32⟩
  | 48 => ⟨S100000x1, .f32⟩
  | 49 => ⟨S100000x128, .f32⟩
  | 50 => ⟨S100000x128, .f32⟩
  | 51 => ⟨S1x128, .f32⟩
  | 52 => ⟨S100000x128, .f32⟩
  | 53 => ⟨S100000x128, .f32⟩
  | 54 => ⟨S_, .f32⟩
  | 55 => ⟨S100000x128, .f32⟩
  | 56 => ⟨S100000x128, .f32⟩
  | 57 => ⟨S100000x1, .f32⟩
  | 58 => ⟨S100000x128, .f32⟩
  | 59 => ⟨S100000x128, .f32⟩
  | 60 => ⟨S100000x128, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x128, .f32⟩
  | 70 => ⟨S_, .f32⟩
  | 71 => ⟨S100000x128, .f32⟩
  | 72 => ⟨S1600000x1, .i32⟩
  | 73 => ⟨S100000x128, .f32⟩
  | 74 => ⟨S100000x1, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S100000x1, .f32⟩
  | 84 => ⟨S100000x128, .f32⟩
  | 85 => ⟨S100000x128, .f32⟩
  | 86 => ⟨S100000x128, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000x128, .f32⟩
  | 96 => ⟨S_, .f32⟩
  | 97 => ⟨S100000x128, .f32⟩
  | 98 => ⟨S1600000x1, .i32⟩
  | 99 => ⟨S100000x128, .f32⟩
  | 100 => ⟨S100000x1, .f32⟩
  | 101 => ⟨S100000x128, .f32⟩
  | 102 => ⟨S100000x128, .f32⟩
  | 103 => ⟨S1x128, .f32⟩
  | 104 => ⟨S100000x128, .f32⟩
  | 105 => ⟨S100000x128, .f32⟩
  | 106 => ⟨S_, .f32⟩
  | 107 => ⟨S100000x128, .f32⟩
  | 108 => ⟨S100000x128, .f32⟩
  | 109 => ⟨S100000x1, .f32⟩
  | 110 => ⟨S100000x128, .f32⟩
  | 111 => ⟨S100000x128, .f32⟩
  | 112 => ⟨S100000x64, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x64, .f32⟩
  | 122 => ⟨S_, .f32⟩
  | 123 => ⟨S100000x64, .f32⟩
  | 124 => ⟨S1600000x1, .i32⟩
  | 125 => ⟨S100000x64, .f32⟩
  | 126 => ⟨S100000x1, .f32⟩
  | 127 => ⟨S100000x64, .f32⟩
  | _ => ⟨S100000x128, .f32⟩

abbrev hbmTy0_1 (i : Nat) : BufTy := match i % 128 with
  | 0 => ⟨S100000x64, .f32⟩
  | 1 => ⟨S1x64, .f32⟩
  | 2 => ⟨S100000x64, .f32⟩
  | 3 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v7 : Ref sig .tc := ⟨.hbm, 24, rfl⟩
abbrev main_v8 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_4 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call2_cst : Ref sig .tc := ⟨.hbm, 54, rfl⟩
abbrev main_call2_v0 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_6 : Ref sig .tc := ⟨.hbm, 61, rfl⟩
abbrev main_v36 : Ref sig .tc := ⟨.hbm, 62, rfl⟩
abbrev main_v37 : Ref sig .tc := ⟨.hbm, 63, rfl⟩
abbrev main_c_7 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_8 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_call3_cst : Ref sig .tc := ⟨.hbm, 80, rfl⟩
abbrev main_call3_v0 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_c_9 : Ref sig .tc := ⟨.hbm, 87, rfl⟩
abbrev main_v57 : Ref sig .tc := ⟨.hbm, 88, rfl⟩
abbrev main_v58 : Ref sig .tc := ⟨.hbm, 89, rfl⟩
abbrev main_c_10 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_11 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_call4_cst : Ref sig .tc := ⟨.hbm, 106, rfl⟩
abbrev main_call4_v0 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_c_12 : Ref sig .tc := ⟨.hbm, 113, rfl⟩
abbrev main_v78 : Ref sig .tc := ⟨.hbm, 114, rfl⟩
abbrev main_v79 : Ref sig .tc := ⟨.hbm, 115, rfl⟩
abbrev main_c_13 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_14 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel's run with its result array named.

  The program is five launches among stretches of host operations.  The buffer contents at each boundary are a fold
  through the program: a stretch applies its operations, a launch replaces its arrays by what its write-backs leave.
  Run from any memory, every weakly fair execution ends with each unscoped buffer at the last boundary's contents;
  read at the result buffer and at the eleven arguments this is the statement below.
-/
import proofs.«169862_j32014686224952_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the arguments as launched. -/
theorem run : θ_run defs (onTc (τ := τ) (main (F := F))) ⟨m, fun _ => 0, ρ⟩ (fun r => ∀ c : Dev nD,
      r.2.mem ((c.tc : Thread nD τ).loc main_v65) = W14 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v65 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c)⟩)

end Cert.KernelIdeal.Named

end
-- ==== Proof.Static.lean ====
/-
  What no segment after the first stretch writes.

  The two edge lists, the columns of source and destination factors, the weights as passed to the launches and the
  bias rows are fixed once the first stretch of host operations has run: every later stretch writes other buffers, and
  every launch either only stages them as inputs or does not touch them.  So their contents at the first launch's
  entry are their contents at every later boundary.
-/
import proofs.«169862_j32014686224952_1_alg».proof.Proof.Gen.KernelIdeal.Frame
import proofs.«169862_j32014686224952_1_alg».proof.Proof.Gen.ReferenceIdeal.Read
import Idealize.ShloMosaic.Lib.ValueLayout
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.ValueIdx Idealize.ShloMosaic.StableHlo
open Cert.ReferenceIdeal.Read (val_main_v8 val_main_v10 val_main_v14 val_main_v24 val_main_v35 val_main_v45 val_main_v56 val_main_v66
  val_main_v77 val_main_v87 val_main_v93)

variable (m : (ℓ : Loc nD τ sig) → Buf (Elt Ideal) ℓ) (ρ : Dev nD → PrngReg) (c : Dev nD)

/-! ## The arguments -/

abbrev x0 : (⟨S100000x128, .f32⟩ : BufTy).Contents (Elt Ideal) := m ((c : Thread nD τ).loc main_arg0)
abbrev x1 : (⟨S1600000, .i32⟩ : BufTy).Contents (Elt Ideal) := m ((c : Thread nD τ).loc main_arg1)
abbrev x2 : (⟨S1600000, .i32⟩ : BufTy).Contents (Elt Ideal) := m ((c : Thread nD τ).loc main_arg2)
abbrev x3 : (⟨S128x128, .f32⟩ : BufTy).Contents (Elt Ideal) := m ((c : Thread nD τ).loc main_arg3)
abbrev x4 : (⟨S128, .f32⟩ : BufTy).Contents (Elt Ideal) := m ((c : Thread nD τ).loc main_arg4)
abbrev x5 : (⟨S128x128, .f32⟩ : BufTy).Contents (Elt Ideal) := m ((c : Thread nD τ).loc main_arg5)
abbrev x6 : (⟨S128, .f32⟩ : BufTy).Contents (Elt Ideal) := m ((c : Thread nD τ).loc main_arg6)
abbrev x7 : (⟨S128x128, .f32⟩ : BufTy).Contents (Elt Ideal) := m ((c : Thread nD τ).loc main_arg7)
abbrev x8 : (⟨S128, .f32⟩ : BufTy).Contents (Elt Ideal) := m ((c : Thread nD τ).loc main_arg8)
abbrev x9 : (⟨S128x64, .f32⟩ : BufTy).Contents (Elt Ideal) := m ((c : Thread nD τ).loc main_arg9)
abbrev x10 : (⟨S64, .f32⟩ : BufTy).Contents (Elt Ideal) := m ((c : Thread nD τ).loc main_arg10)

/-- A vector cast to a one-column matrix reads, at `(i, u)`, the vector at `i`. -/
theorem col_cast {a : ℕ} {α : Type} (v : (⟨1, ![a]⟩ : Shape).Idx → α) (h : (⟨1, ![a]⟩ : Shape).ShapeCasts ⟨2, ![a, 1]⟩)
    (i : Fin a) (u : Fin 1) : shapeCast ⟨2, ![a, 1]⟩ v h (ix2 i u) = v (ix1 i) :=
  shapeCast_apply v h _ _ (by
    have hu : u.val = 0 := by omega
    rw [Shape.rowMajor_val_two, Shape.rowMajor_val_one]
    show i.val = i.val * 1 + u.val
    rw [hu, Nat.mul_one, Nat.add_zero])

/-! ## What no later segment writes -/

/-- The contents, at a boundary, of the buffers fixed by the first stretch: the edge lists as launched; the factor
    columns at the reference's source and destination factors; the weights and bias rows at the arguments. -/
structure Static (W : Valuation τ sig (Elt Ideal)) : Prop where
  src : W (Proc.devRef .tc main_arg1) = m ((c : Thread nD τ).loc main_arg1)
  dst : W (Proc.devRef .tc main_arg2) = m ((c : Thread nD τ).loc main_arg2)
  ns : ∀ r : Fin 100000, (W (Proc.devRef .tc main_v11) : S100000x1.Idx → EReal) (ix2 r 0) = val_main_v8 (F := Ideal) (x1 m c) (ix1 r)
  nd : ∀ r : Fin 100000, (W (Proc.devRef .tc main_v12) : S100000x1.Idx → EReal) (ix2 r 0) = val_main_v10 (F := Ideal) (x2 m c) (ix1 r)
  w2 : (W (Proc.devRef .tc main_v14) : S128x128.Idx → EReal) = x5 m c
  w3 : (W (Proc.devRef .tc main_v15) : S128x128.Idx → EReal) = x7 m c
  w4 : (W (Proc.devRef .tc main_v16) : S128x64.Idx → EReal) = x9 m c
  b1 : ∀ k : Fin 128, (W (Proc.devRef .tc main_v17) : S1x128.Idx → EReal) (ix2 0 k) = x4 m c (ix1 k)
  b2 : ∀ k : Fin 128, (W (Proc.devRef .tc main_v18) : S1x128.Idx → EReal) (ix2 0 k) = x6 m c (ix1 k)
  b3 : ∀ k : Fin 128, (W (Proc.devRef .tc main_v19) : S1x128.Idx → EReal) (ix2 0 k) = x8 m c (ix1 k)
  b4 : ∀ k : Fin 64, (W (Proc.devRef .tc main_v20) : S1x64.Idx → EReal) (ix2 0 k) = x10 m c (ix1 k)

/-- Two boundaries' contents agree on those buffers. -/
structure Same (W W' : Valuation τ sig (Elt Ideal)) : Prop where
  src : W' (Proc.devRef .tc main_arg1) = W (Proc.devRef .tc main_arg1)
  dst : W' (Proc.devRef .tc main_arg2) = W (Proc.devRef .tc main_arg2)
  ns : W' (Proc.devRef .tc main_v11) = W (Proc.devRef .tc main_v11)
  nd : W' (Proc.devRef .tc main_v12) = W (Proc.devRef .tc main_v12)
  w2 : W' (Proc.devRef .tc main_v14) = W (Proc.devRef .tc main_v14)
  w3 : W' (Proc.devRef .tc main_v15) = W (Proc.devRef .tc main_v15)
  w4 : W' (Proc.devRef .tc main_v16) = W (Proc.devRef .tc main_v16)
  b1 : W' (Proc.devRef .tc main_v17) = W (Proc.devRef .tc main_v17)
  b2 : W' (Proc.devRef .tc main_v18) = W (Proc.devRef .tc main_v18)
  b3 : W' (Proc.devRef .tc main_v19) = W (Proc.devRef .tc main_v19)
  b4 : W' (Proc.devRef .tc main_v20) = W (Proc.devRef .tc main_v20)

variable {m c} in
theorem Static.of_same {W W' : Valuation τ sig (Elt Ideal)} (h : Same W W') (s : Static m c W) : Static m c W' where
  src := h.src.trans s.src
  dst := h.dst.trans s.dst
  ns := fun r => by rw [h.ns]; exact s.ns r
  nd := fun r => by rw [h.nd]; exact s.nd r
  w2 := by rw [h.w2]; exact s.w2
  w3 := by rw [h.w3]; exact s.w3
  w4 := by rw [h.w4]; exact s.w4
  b1 := fun k => by rw [h.b1]; exact s.b1 k
  b2 := fun k => by rw [h.b2]; exact s.b2 k
  b3 := fun k => by rw [h.b3]; exact s.b3 k
  b4 := fun k => by rw [h.b4]; exact s.b4 k

/-- A buffer none of a stretch's operations writes is left as it was. -/
local macro "untouched_by " ops:ident : tactic => `(tactic|
  exact StableHlo.after_of_forall_not_mem _ _ (List.forall_iff_forall_mem.mp (by
    simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-- The stretch before launch 1 writes none of them. -/
theorem same_stretch1 (W : Valuation τ sig (Elt Ideal)) : Same W (StableHlo.after hostOps1 W) where
  src := by untouched_by hostOps1
  dst := by untouched_by hostOps1
  ns := by untouched_by hostOps1
  nd := by untouched_by hostOps1
  w2 := by untouched_by hostOps1
  w3 := by untouched_by hostOps1
  w4 := by untouched_by hostOps1
  b1 := by untouched_by hostOps1
  b2 := by untouched_by hostOps1
  b3 := by untouched_by hostOps1
  b4 := by untouched_by hostOps1

/-- The stretch before launch 2 writes none of them. -/
theorem same_stretch2 (W : Valuation τ sig (Elt Ideal)) : Same W (StableHlo.after hostOps2 W) where
  src := by untouched_by hostOps2
  dst := by untouched_by hostOps2
  ns := by untouched_by hostOps2
  nd := by untouched_by hostOps2
  w2 := by untouched_by hostOps2
  w3 := by untouched_by hostOps2
  w4 := by untouched_by hostOps2
  b1 := by untouched_by hostOps2
  b2 := by untouched_by hostOps2
  b3 := by untouched_by hostOps2
  b4 := by untouched_by hostOps2

/-- The stretch before launch 3 writes none of them. -/
theorem same_stretch3 (W : Valuation τ sig (Elt Ideal)) : Same W (StableHlo.after hostOps3 W) where
  src := by untouched_by hostOps3
  dst := by untouched_by hostOps3
  ns := by untouched_by hostOps3
  nd := by untouched_by hostOps3
  w2 := by untouched_by hostOps3
  w3 := by untouched_by hostOps3
  w4 := by untouched_by hostOps3
  b1 := by untouched_by hostOps3
  b2 := by untouched_by hostOps3
  b3 := by untouched_by hostOps3
  b4 := by untouched_by hostOps3

/-- The stretch before launch 4 writes none of them. -/
theorem same_stretch4 (W : Valuation τ sig (Elt Ideal)) : Same W (StableHlo.after hostOps4 W) where
  src := by untouched_by hostOps4
  dst := by untouched_by hostOps4
  ns := by untouched_by hostOps4
  nd := by untouched_by hostOps4
  w2 := by untouched_by hostOps4
  w3 := by untouched_by hostOps4
  w4 := by untouched_by hostOps4
  b1 := by untouched_by hostOps4
  b2 := by untouched_by hostOps4
  b3 := by untouched_by hostOps4
  b4 := by untouched_by hostOps4

/-- Launch 0 writes none of them: each is an input it only stages, or no array of the launch at all. -/
theorem same_launch0 : Same (W5 m ρ c) (W6 m ρ c) where
  src := W6_of_ne m ρ c main_arg1 (by decide)
  dst := W6_of_ne m ρ c main_arg2 (by decide)
  ns := (W6_arr m ρ c 1).trans (((dat0 (V5 m ρ) c).arrAt_in 1 rfl _).trans (A_eq0 (V5 m ρ) c 1))
  nd := W6_of_ne m ρ c main_v12 (by decide)
  w2 := W6_of_ne m ρ c main_v14 (by decide)
  w3 := W6_of_ne m ρ c main_v15 (by decide)
  w4 := W6_of_ne m ρ c main_v16 (by decide)
  b1 := W6_of_ne m ρ c main_v17 (by decide)
  b2 := W6_of_ne m ρ c main_v18 (by decide)
  b3 := W6_of_ne m ρ c main_v19 (by decide)
  b4 := W6_of_ne m ρ c main_v20 (by decide)

/-- Launch 1 writes none of them: each is an input it only stages, or no array of the launch at all. -/
theorem same_launch1 : Same (W7 m ρ c) (W8 m ρ c) where
  src := W8_of_ne m ρ c main_arg1 (by decide)
  dst := W8_of_ne m ρ c main_arg2 (by decide)
  ns := (W8_arr m ρ c 2).trans (((dat1 (V7 m ρ) c).arrAt_in 2 rfl _).trans (A_eq1 (V7 m ρ) c 2))
  nd := (W8_arr m ρ c 1).trans (((dat1 (V7 m ρ) c).arrAt_in 1 rfl _).trans (A_eq1 (V7 m ρ) c 1))
  w2 := (W8_arr m ρ c 4).trans (((dat1 (V7 m ρ) c).arrAt_in 4 rfl _).trans (A_eq1 (V7 m ρ) c 4))
  w3 := W8_of_ne m ρ c main_v15 (by decide)
  w4 := W8_of_ne m ρ c main_v16 (by decide)
  b1 := (W8_arr m ρ c 3).trans (((dat1 (V7 m ρ) c).arrAt_in 3 rfl _).trans (A_eq1 (V7 m ρ) c 3))
  b2 := W8_of_ne m ρ c main_v18 (by decide)
  b3 := W8_of_ne m ρ c main_v19 (by decide)
  b4 := W8_of_ne m ρ c main_v20 (by decide)

/-- Launch 2 writes none of them: each is an input it only stages, or no array of the launch at all. -/
theorem same_launch2 : Same (W9 m ρ c) (W10 m ρ c) where
  src := W10_of_ne m ρ c main_arg1 (by decide)
  dst := W10_of_ne m ρ c main_arg2 (by decide)
  ns := (W10_arr m ρ c 2).trans (((dat2 (V9 m ρ) c).arrAt_in 2 rfl _).trans (A_eq2 (V9 m ρ) c 2))
  nd := (W10_arr m ρ c 1).trans (((dat2 (V9 m ρ) c).arrAt_in 1 rfl _).trans (A_eq2 (V9 m ρ) c 1))
  w2 := W10_of_ne m ρ c main_v14 (by decide)
  w3 := (W10_arr m ρ c 4).trans (((dat2 (V9 m ρ) c).arrAt_in 4 rfl _).trans (A_eq2 (V9 m ρ) c 4))
  w4 := W10_of_ne m ρ c main_v16 (by decide)
  b1 := W10_of_ne m ρ c main_v17 (by decide)
  b2 := (W10_arr m ρ c 3).trans (((dat2 (V9 m ρ) c).arrAt_in 3 rfl _).trans (A_eq2 (V9 m ρ) c 3))
  b3 := W10_of_ne m ρ c main_v19 (by decide)
  b4 := W10_of_ne m ρ c main_v20 (by decide)

/-- Launch 3 writes none of them: each is an input it only stages, or no array of the launch at all. -/
theorem same_launch3 : Same (W11 m ρ c) (W12 m ρ c) where
  src := W12_of_ne m ρ c main_arg1 (by decide)
  dst := W12_of_ne m ρ c main_arg2 (by decide)
  ns := (W12_arr m ρ c 2).trans (((dat3 (V11 m ρ) c).arrAt_in 2 rfl _).trans (A_eq3 (V11 m ρ) c 2))
  nd := (W12_arr m ρ c 1).trans (((dat3 (V11 m ρ) c).arrAt_in 1 rfl _).trans (A_eq3 (V11 m ρ) c 1))
  w2 := W12_of_ne m ρ c main_v14 (by decide)
  w3 := W12_of_ne m ρ c main_v15 (by decide)
  w4 := (W12_arr m ρ c 4).trans (((dat3 (V11 m ρ) c).arrAt_in 4 rfl _).trans (A_eq3 (V11 m ρ) c 4))
  b1 := W12_of_ne m ρ c main_v17 (by decide)
  b2 := W12_of_ne m ρ c main_v18 (by decide)
  b3 := (W12_arr m ρ c 3).trans (((dat3 (V11 m ρ) c).arrAt_in 3 rfl _).trans (A_eq3 (V11 m ρ) c 3))
  b4 := W12_of_ne m ρ c main_v20 (by decide)

/-- Launch 4 writes none of them: each is an input it only stages, or no array of the launch at all. -/
theorem same_launch4 : Same (W13 m ρ c) (W14 m ρ c) where
  src := W14_of_ne m ρ c main_arg1 (by decide)
  dst := W14_of_ne m ρ c main_arg2 (by decide)
  ns := W14_of_ne m ρ c main_v11 (by decide)
  nd := (W14_arr m ρ c 1).trans (((dat4 (V13 m ρ) c).arrAt_in 1 rfl _).trans (A_eq4 (V13 m ρ) c 1))
  w2 := W14_of_ne m ρ c main_v14 (by decide)
  w3 := W14_of_ne m ρ c main_v15 (by decide)
  w4 := W14_of_ne m ρ c main_v16 (by decide)
  b1 := W14_of_ne m ρ c main_v17 (by decide)
  b2 := W14_of_ne m ρ c main_v18 (by decide)
  b3 := W14_of_ne m ρ c main_v19 (by decide)
  b4 := (W14_arr m ρ c 2).trans (((dat4 (V13 m ρ) c).arrAt_in 2 rfl _).trans (A_eq4 (V13 m ρ) c 2))

end Cert.KernelIdeal.Chain

end
-- ==== Proof.Entry.lean ====
/-
  The first launch's entry contents.

  The first stretch computes the two degree vectors by scatter-adding ones over the edge lists, clamps them below at
  one, takes the reciprocal square roots, reshapes both to columns, passes the four weight matrices through a change
  of float format (the identity at the exact values) and reshapes the four biases to rows.  Each piece of the stretch
  is read over an arbitrary boundary's contents, so that what an earlier piece computed stays a name; composed and
  read back to the launch memory, the factor columns are the reference's source and destination factors as columns,
  the weights and biases the arguments.
-/
import proofs.«169862_j32014686224952_1_alg».proof.Proof.Static

set_option maxRecDepth 16384

noncomputable section

namespace Cert.KernelIdeal.Chain

open Cert.KernelIdeal Cert.KernelIdeal.Gen Idealize.ShloMosaic Idealize.ShloMosaic.TcCoe Idealize.SL.Sem
open Idealize.ShloMosaic.ValueIdx Idealize.ShloMosaic.StableHlo
open Cert.ReferenceIdeal.Read (val_main_v8 val_main_v10 val_main_v14 val_main_v24 val_main_v35 val_main_v45 val_main_v56 val_main_v66
  val_main_v77 val_main_v87 val_main_v93)

variable (m : (ℓ : Loc nD τ sig) → Buf (Elt Ideal) ℓ) (ρ : Dev nD → PrngReg) (c : Dev nD)

/-! ## The factor vectors -/

/-- A factor vector: the reciprocal square root of the degrees (the count of edges at each node), clamped below at one. -/
def factorOf (idx : (⟨S1600000, .i32⟩ : BufTy).Contents (Elt Ideal)) : (⟨S100000, .f32⟩ : BufTy).Contents (Elt Ideal) :=
  Host.rsqrt (maximumf (broadcastInDim S100000 ![] bcast_S_S100000 (id (constant (F := Ideal) S_ .f32 0x3F800000#32)))
    (Host.scatterAdd scatter_S100000_S1600000x1_S1600000_n_0_0_1 (broadcastInDim S100000 ![] bcast_S_S100000 (constant (F := Ideal) S_ .f32 0x00000000#32))
      (broadcastInDim S1600000x1 ![0] bcast_S1600000_S1600000x1_0 idx) (broadcastInDim S1600000 ![] bcast_S_S1600000 (constant (F := Ideal) S_ .f32 0x3F800000#32))))

/-- The two programs name one scatter. -/
theorem scatter_eq : Cert.ReferenceIdeal.scatter_S100000_S1600000x1_S1600000_n_0_0_1 = scatter_S100000_S1600000x1_S1600000_n_0_0_1 := rfl

/-- It is the reference's source factor of the source list … -/
theorem factorOf_src (x : (⟨S1600000, .i32⟩ : BufTy).Contents (Elt Ideal)) : factorOf x = val_main_v8 (F := Ideal) x := by
  unfold factorOf val_main_v8 Cert.ReferenceIdeal.Read.val_main_v7 Cert.ReferenceIdeal.Read.val_main_v3
  rw [scatter_eq]
  rfl

/-- … and its destination factor of the destination list. -/
theorem factorOf_dst (x : (⟨S1600000, .i32⟩ : BufTy).Contents (Elt Ideal)) : factorOf x = val_main_v10 (F := Ideal) x := by
  unfold factorOf val_main_v10 Cert.ReferenceIdeal.Read.val_main_v9 Cert.ReferenceIdeal.Read.val_main_v6
  rw [scatter_eq]
  rfl

/-! ## The pieces of the first stretch, over any contents -/

/-- A buffer none of a stretch's operations writes is left as it was. -/
local macro "untouched_by " ops:ident : tactic => `(tactic|
  exact StableHlo.after_of_forall_not_mem _ _ (List.forall_iff_forall_mem.mp (by
    simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

section Pieces
variable (W : Valuation τ sig (Elt Ideal))

theorem deg_src : StableHlo.after hostOps0 W (Proc.devRef .tc main_v3)
    = Host.scatterAdd scatter_S100000_S1600000x1_S1600000_n_0_0_1 (broadcastInDim S100000 ![] bcast_S_S100000 (constant (F := Ideal) S_ .f32 0x00000000#32))
      (broadcastInDim S1600000x1 ![0] bcast_S1600000_S1600000x1_0 (W (Proc.devRef .tc main_arg1))) (broadcastInDim S1600000 ![] bcast_S_S1600000 (constant (F := Ideal) S_ .f32 0x3F800000#32)) := by after_results_simp <;> rfl
theorem deg_dst : StableHlo.after hostOps0 W (Proc.devRef .tc main_v6)
    = Host.scatterAdd scatter_S100000_S1600000x1_S1600000_n_0_0_1 (broadcastInDim S100000 ![] bcast_S_S100000 (constant (F := Ideal) S_ .f32 0x00000000#32))
      (broadcastInDim S1600000x1 ![0] bcast_S1600000_S1600000x1_0 (W (Proc.devRef .tc main_arg2))) (broadcastInDim S1600000 ![] bcast_S_S1600000 (constant (F := Ideal) S_ .f32 0x3F800000#32)) := by after_results_simp <;> rfl
theorem one_src : StableHlo.after hostOps0 W (Proc.devRef .tc main_cst_2) = (constant (F := Ideal) S_ .f32 0x3F800000#32) := by after_results_simp <;> rfl
theorem clamp_src : StableHlo.after hostOps0_1 W (Proc.devRef .tc main_v7)
    = maximumf (F := Ideal) (φ := .f32) (broadcastInDim S100000 ![] bcast_S_S100000 (id (α := FVec Ideal S_ .f32) (W (Proc.devRef .tc main_cst_2)))) (W (Proc.devRef .tc main_v3)) := by
  after_results_simp <;> rfl
theorem keep_deg_dst1 : StableHlo.after hostOps0_1 W (Proc.devRef .tc main_v6) = W (Proc.devRef .tc main_v6) := by untouched_by hostOps0_1
theorem rsqrt_src : StableHlo.after hostOps0_2 W (Proc.devRef .tc main_v8) = Host.rsqrt (F := Ideal) (φ := .f32) (W (Proc.devRef .tc main_v7)) := by
  after_results_simp <;> rfl
theorem one_dst : StableHlo.after hostOps0_2 W (Proc.devRef .tc main_cst_3) = (constant (F := Ideal) S_ .f32 0x3F800000#32) := by after_results_simp <;> rfl
theorem keep_deg_dst2 : StableHlo.after hostOps0_2 W (Proc.devRef .tc main_v6) = W (Proc.devRef .tc main_v6) := by untouched_by hostOps0_2
theorem clamp_dst : StableHlo.after hostOps0_3 W (Proc.devRef .tc main_v9)
    = maximumf (F := Ideal) (φ := .f32) (broadcastInDim S100000 ![] bcast_S_S100000 (id (α := FVec Ideal S_ .f32) (W (Proc.devRef .tc main_cst_3)))) (W (Proc.devRef .tc main_v6)) := by
  after_results_simp <;> rfl
theorem keep_src3 : StableHlo.after hostOps0_3 W (Proc.devRef .tc main_v8) = W (Proc.devRef .tc main_v8) := by untouched_by hostOps0_3
theorem column_src : StableHlo.after hostOps0_4 W (Proc.devRef .tc main_v11)
    = fun i => shapeCast S100000x1 (W (Proc.devRef .tc main_v8)) shapeCasts_S100000_S100000x1 i := by after_results_simp <;> rfl
theorem column_dst : StableHlo.after hostOps0_4 W (Proc.devRef .tc main_v12)
    = fun i => shapeCast S100000x1 (Host.rsqrt (F := Ideal) (φ := .f32) (W (Proc.devRef .tc main_v9))) shapeCasts_S100000_S100000x1 i := by after_results_simp <;> rfl

end Pieces

/-! ## The first launch's entry -/

/-- The first launch's entry contents, unfolded to the launch memory through the five pieces of the first stretch. -/
local macro "first_stretch" : tactic => `(tactic|
  (show StableHlo.after hostOps0_4 (StableHlo.after hostOps0_3 (StableHlo.after hostOps0_2 (StableHlo.after hostOps0_1
      (StableHlo.after hostOps0 (W0 m ρ c))))) _ = _
   after_results_simp <;> rfl))

theorem entry_x : W5 m ρ c (Proc.devRef .tc main_arg0) = m ((c : Thread nD τ).loc main_arg0) := by first_stretch
theorem entry_src : W5 m ρ c (Proc.devRef .tc main_arg1) = m ((c : Thread nD τ).loc main_arg1) := by first_stretch
theorem entry_dst : W5 m ρ c (Proc.devRef .tc main_arg2) = m ((c : Thread nD τ).loc main_arg2) := by first_stretch

theorem entry_ns : W5 m ρ c (Proc.devRef .tc main_v11)
    = fun i => shapeCast S100000x1 (val_main_v8 (F := Ideal) (x1 m c)) shapeCasts_S100000_S100000x1 i := by
  show StableHlo.after hostOps0_4 (StableHlo.after hostOps0_3 (StableHlo.after hostOps0_2 (StableHlo.after hostOps0_1
      (StableHlo.after hostOps0 (W0 m ρ c))))) _ = _
  rw [column_src, keep_src3, rsqrt_src, clamp_src, one_src, deg_src, ← factorOf_src]
  rfl

theorem entry_nd : W5 m ρ c (Proc.devRef .tc main_v12)
    = fun i => shapeCast S100000x1 (val_main_v10 (F := Ideal) (x2 m c)) shapeCasts_S100000_S100000x1 i := by
  show StableHlo.after hostOps0_4 (StableHlo.after hostOps0_3 (StableHlo.after hostOps0_2 (StableHlo.after hostOps0_1
      (StableHlo.after hostOps0 (W0 m ρ c))))) _ = _
  rw [column_dst, clamp_dst, one_dst, keep_deg_dst2, keep_deg_dst1, deg_dst, ← factorOf_dst]
  rfl
theorem entry_w1 : (W5 m ρ c (Proc.devRef .tc main_v13) : S128x128.Idx → EReal) = x3 m c := by first_stretch
theorem entry_w2 : (W5 m ρ c (Proc.devRef .tc main_v14) : S128x128.Idx → EReal) = x5 m c := by first_stretch
theorem entry_w3 : (W5 m ρ c (Proc.devRef .tc main_v15) : S128x128.Idx → EReal) = x7 m c := by first_stretch
theorem entry_w4 : (W5 m ρ c (Proc.devRef .tc main_v16) : S128x64.Idx → EReal) = x9 m c := by first_stretch
theorem entry_b1 : W5 m ρ c (Proc.devRef .tc main_v17) = fun i => shapeCast S1x128 (x4 m c) shapeCasts_S128_S1x128 i := by first_stretch
theorem entry_b2 : W5 m ρ c (Proc.devRef .tc main_v18) = fun i => shapeCast S1x128 (x6 m c) shapeCasts_S128_S1x128 i := by first_stretch
theorem entry_b3 : W5 m ρ c (Proc.devRef .tc main_v19) = fun i => shapeCast S1x128 (x8 m c) shapeCasts_S128_S1x128 i := by first_stretch
theorem entry_b4 : W5 m ρ c (Proc.devRef .tc main_v20) = fun i => shapeCast S1x64 (x10 m c) shapeCasts_S64_S1x64 i := by first_stretch

theorem static5 : Static m c (W5 m ρ c) where
  src := entry_src m ρ c
  dst := entry_dst m ρ c
  ns := fun r => (congrFun (entry_ns m ρ c) (ix2 r 0)).trans (col_cast _ _ r 0)
  nd := fun r => (congrFun (entry_nd m ρ c) (ix2 r 0)).trans (col_cast _ _ r 0)
  w2 := entry_w2 m ρ c
  w3 := entry_w3 m ρ c
  w4 := entry_w4 m ρ c
  b1 := fun k => (congrFun (entry_b1 m ρ c) (ix2 0 k)).trans (shapeCast_a_1a_apply _ _ 0 k)
  b2 := fun k => (congrFun (entry_b2 m ρ c) (ix2 0 k)).trans (shapeCast_a_1a_apply _ _ 0 k)
  b3 := fun k => (congrFun (entry_b3 m ρ c) (ix2 0 k)).trans (shapeCast_a_1a_apply _ _ 0 k)
  b4 := fun k => (congrFun (entry_b4 m ρ c) (ix2 0 k)).trans (shapeCast_a_1a_apply _ _ 0 k)

end Cert.KernelIdeal.Chain

end
-- ==== Proof.Payload.lean ====
/-
  The kernels' stored values read at an index.

  Every body stores one matrix: the first launch the product of the node features, scaled row by row by a column of
  per-node factors, with a weight matrix; the middle launches the same product taken of the previous layer's
  aggregate after it is scaled by its per-node factor, shifted by the bias row and clamped below at zero; the last
  launch the scaled and shifted aggregate itself.  At the exact values a change of float format is the identity and a
  matrix product into the zero accumulator is the plain sum over the contracted axis, so entry `(p, q)` of each
  stored block is an explicit expression in row `p` of the loaded blocks and column `q` of the weights.
-/
import proofs.«169862_j32014686224952_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-! ## Layout: a column and a row spread over a block -/

/-- A column of per-row values spread over `c` columns, read at `(p, k)`, is the column's entry for row `p`. -/
theorem spread_col {r c : ℕ} {α : Type} (v : (⟨2, ![r, 1]⟩ : Shape).Idx → α) (h : (⟨2, ![r, 1]⟩ : Shape).Broadcasts ⟨2, ![r, c]⟩)
    (hr : r ≠ 1) (p : Fin r) (k : Fin c) : broadcastTo ⟨2, ![r, c]⟩ v h (ix2 p k) = v (ix2 p 0) := by
  refine broadcastTo_apply v h (ix2 p k) (ix2 p 0) fun a => ?_
  match a with
  | ⟨0, _⟩ => show p.val = if r = 1 then 0 else p.val; rw [if_neg hr]
  | ⟨1, _⟩ => show (0 : ℕ) = if (1 : ℕ) = 1 then 0 else k.val; rw [if_pos rfl]

/-- A row spread over `r` rows, read at `(p, k)`, is the row's entry for column `k`. -/
theorem spread_row {r c : ℕ} {α : Type} (v : (⟨2, ![1, c]⟩ : Shape).Idx → α) (h : (⟨2, ![1, c]⟩ : Shape).Broadcasts ⟨2, ![r, c]⟩)
    (hc : c ≠ 1) (p : Fin r) (k : Fin c) : broadcastTo ⟨2, ![r, c]⟩ v h (ix2 p k) = v (ix2 0 k) := by
  refine broadcastTo_apply v h (ix2 p k) (ix2 0 k) fun a => ?_
  match a with
  | ⟨0, _⟩ => show (0 : ℕ) = if (1 : ℕ) = 1 then 0 else p.val; rw [if_pos rfl]
  | ⟨1, _⟩ => show k.val = if c = 1 then 0 else k.val; rw [if_neg hc]

/-! ## The two matrix products -/

theorem lhs0_128 (j : S10000x128.Idx) (q : dot_S10000x128_S128x128_S10000x128_1_0_0_1_n_n.contr.Idx) : (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem rhs1_128 (j : S10000x128.Idx) (q : dot_S10000x128_S128x128_S10000x128_1_0_0_1_n_n.contr.Idx) : (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A matrix product into the zero accumulator, read at row `p` and column `q`: the sum over the contracted axis of
    the left factor's row `p` against the right factor's column `q`. -/
theorem matmul_zero_128 (lhs : FVec Ideal S10000x128 .bf16) (rhs : FVec Ideal S128x128 .bf16) (p : Fin 10000) (q : Fin 128) :
    matmul dot_S10000x128_S128x128_S10000x128_1_0_0_1_n_n none lhs rhs (constant (F := Ideal) S10000x128 .f32 0x00000000#32) (ix2 p q)
      = ∑ k : Fin 128, lhs (ix2 p k) * rhs (ix2 k q) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhs0_128 _ _
    | ⟨1, _⟩ => exact (dot_S10000x128_S128x128_S10000x128_1_0_0_1_n_n.lhsIdx_val_of_single rfl _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (dot_S10000x128_S128x128_S10000x128_1_0_0_1_n_n.rhsIdx_val_of_single rfl _ _).trans hk
    | ⟨1, _⟩ => exact rhs1_128 _ _)
  rw [el, er]

theorem lhs0_64 (j : S10000x64.Idx) (q : dot_S10000x128_S128x64_S10000x64_1_0_0_1_n_n.contr.Idx) : (dot_S10000x128_S128x64_S10000x64_1_0_0_1_n_n.lhsIdx j q 0).val = (j 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem rhs1_64 (j : S10000x64.Idx) (q : dot_S10000x128_S128x64_S10000x64_1_0_0_1_n_n.contr.Idx) : (dot_S10000x128_S128x64_S10000x64_1_0_0_1_n_n.rhsIdx j q 1).val = (j 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- A matrix product into the zero accumulator, read at row `p` and column `q`: the sum over the contracted axis of
    the left factor's row `p` against the right factor's column `q`. -/
theorem matmul_zero_64 (lhs : FVec Ideal S10000x128 .bf16) (rhs : FVec Ideal S128x64 .bf16) (p : Fin 10000) (q : Fin 64) :
    matmul dot_S10000x128_S128x64_S10000x64_1_0_0_1_n_n none lhs rhs (constant (F := Ideal) S10000x64 .f32 0x00000000#32) (ix2 p q)
      = ∑ k : Fin 128, lhs (ix2 p k) * rhs (ix2 k q) := by
  simp only [matmul]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ix2 p q) ((ValueIdx.contrEquiv1 dot_S10000x128_S128x64_S10000x64_1_0_0_1_n_n 128 rfl rfl).symm k) = ix2 p k := funext fun a => Fin.ext (by
    match a with
    | ⟨0, _⟩ => exact lhs0_64 _ _
    | ⟨1, _⟩ => exact (dot_S10000x128_S128x64_S10000x64_1_0_0_1_n_n.lhsIdx_val_of_single rfl _ _).trans hk)
  have er : dot_S10000x128_S128x64_S10000x64_1_0_0_1_n_n.rhsIdx (ix2 p q) ((ValueIdx.contrEquiv1 dot_S10000x128_S128x64_S10000x64_1_0_0_1_n_n 128 rfl rfl).symm k) = ix2 k q := funext fun a => Fin.ext (by
    match a with
    | ⟨0, _⟩ => exact (dot_S10000x128_S128x64_S10000x64_1_0_0_1_n_n.rhsIdx_val_of_single rfl _ _).trans hk
    | ⟨1, _⟩ => exact rhs1_64 _ _)
  rw [el, er]

/-! ## The stored values -/

/-- The first launch: `∑ₖ (x[p,k] · s[p]) · w[k,q]`. -/
theorem first_apply (x : FVec Ideal S10000x128 .f32) (s : FVec Ideal S10000x1 .f32) (w : FVec Ideal S128x128 .bf16)
    (p : Fin 10000) (q : Fin 128) :
    k0_pay1 (F := Ideal) x s w (ix2 p q) = ∑ k : Fin 128, (x (ix2 p k) * s (ix2 p 0)) * (w (ix2 k q) : EReal) := by
  unfold k0_pay1
  refine (matmul_zero_128 _ _ p q).trans (Finset.sum_congr rfl fun k _ => ?_)
  simp only [shapeCast_self]
  show (x (ix2 p k) * broadcastTo S10000x128 s broadcasts_S10000x1_S10000x128 (ix2 p k)) * w (ix2 k q) = _
  rw [spread_col s broadcasts_S10000x1_S10000x128 (by decide) p k]

/-- The middle launches: `∑ₖ (max (a[p,k] · d[p] + b[k]) 0 · s[p]) · w[k,q]`. -/
theorem mid_apply (a : FVec Ideal S10000x128 .f32) (d : FVec Ideal S10000x1 .f32) (b : FVec Ideal S1x128 .f32)
    (s : FVec Ideal S10000x1 .f32) (w : FVec Ideal S128x128 .bf16) (p : Fin 10000) (q : Fin 128) :
    k1_pay1 (F := Ideal) a d b s w (ix2 p q)
      = ∑ k : Fin 128, (max (a (ix2 p k) * d (ix2 p 0) + b (ix2 0 k)) (Scalar.ofBits (F := Ideal) .f32 0x00000000#32) * s (ix2 p 0)) * (w (ix2 k q) : EReal) := by
  unfold k1_pay1
  refine (matmul_zero_128 _ _ p q).trans (Finset.sum_congr rfl fun k _ => ?_)
  simp only [shapeCast_self]
  show (max (a (ix2 p k) * broadcastTo S10000x128 d broadcasts_S10000x1_S10000x128 (ix2 p k)
        + broadcastTo S10000x128 b broadcasts_S1x128_S10000x128 (ix2 p k)) (Scalar.ofBits (F := Ideal) .f32 0x00000000#32)
      * broadcastTo S10000x128 s broadcasts_S10000x1_S10000x128 (ix2 p k)) * w (ix2 k q) = _
  rw [spread_col d broadcasts_S10000x1_S10000x128 (by decide) p k, spread_col s broadcasts_S10000x1_S10000x128 (by decide) p k,
    spread_row b broadcasts_S1x128_S10000x128 (by decide) p k]

/-- The same body, printed a second time: `∑ₖ (max (a[p,k] · d[p] + b[k]) 0 · s[p]) · w[k,q]`. -/
theorem mid2_apply (a : FVec Ideal S10000x128 .f32) (d : FVec Ideal S10000x1 .f32) (b : FVec Ideal S1x128 .f32)
    (s : FVec Ideal S10000x1 .f32) (w : FVec Ideal S128x128 .bf16) (p : Fin 10000) (q : Fin 128) :
    k2_pay1 (F := Ideal) a d b s w (ix2 p q)
      = ∑ k : Fin 128, (max (a (ix2 p k) * d (ix2 p 0) + b (ix2 0 k)) (Scalar.ofBits (F := Ideal) .f32 0x00000000#32) * s (ix2 p 0)) * (w (ix2 k q) : EReal) := by
  unfold k2_pay1
  refine (matmul_zero_128 _ _ p q).trans (Finset.sum_congr rfl fun k _ => ?_)
  simp only [shapeCast_self]
  show (max (a (ix2 p k) * broadcastTo S10000x128 d broadcasts_S10000x1_S10000x128 (ix2 p k)
        + broadcastTo S10000x128 b broadcasts_S1x128_S10000x128 (ix2 p k)) (Scalar.ofBits (F := Ideal) .f32 0x00000000#32)
      * broadcastTo S10000x128 s broadcasts_S10000x1_S10000x128 (ix2 p k)) * w (ix2 k q) = _
  rw [spread_col d broadcasts_S10000x1_S10000x128 (by decide) p k, spread_col s broadcasts_S10000x1_S10000x128 (by decide) p k,
    spread_row b broadcasts_S1x128_S10000x128 (by decide) p k]

/-- The last product, into sixty-four columns: `∑ₖ (max (a[p,k] · d[p] + b[k]) 0 · s[p]) · w[k,q]`. -/
theorem mid64_apply (a : FVec Ideal S10000x128 .f32) (d : FVec Ideal S10000x1 .f32) (b : FVec Ideal S1x128 .f32)
    (s : FVec Ideal S10000x1 .f32) (w : FVec Ideal S128x64 .bf16) (p : Fin 10000) (q : Fin 64) :
    k3_pay1 (F := Ideal) a d b s w (ix2 p q)
      = ∑ k : Fin 128, (max (a (ix2 p k) * d (ix2 p 0) + b (ix2 0 k)) (Scalar.ofBits (F := Ideal) .f32 0x00000000#32) * s (ix2 p 0)) * (w (ix2 k q) : EReal) := by
  unfold k3_pay1
  refine (matmul_zero_64 _ _ p q).trans (Finset.sum_congr rfl fun k _ => ?_)
  simp only [shapeCast_self]
  show (max (a (ix2 p k) * broadcastTo S10000x128 d broadcasts_S10000x1_S10000x128 (ix2 p k)
        + broadcastTo S10000x128 b broadcasts_S1x128_S10000x128 (ix2 p k)) (Scalar.ofBits (F := Ideal) .f32 0x00000000#32)
      * broadcastTo S10000x128 s broadcasts_S10000x1_S10000x128 (ix2 p k)) * w (ix2 k q) = _
  rw [spread_col d broadcasts_S10000x1_S10000x128 (by decide) p k, spread_col s broadcasts_S10000x1_S10000x128 (by decide) p k,
    spread_row b broadcasts_S1x128_S10000x128 (by decide) p k]

/-- The last launch: `a[p,q] · d[p] + b[q]`. -/
theorem last_apply (a : FVec Ideal S10000x64 .f32) (d : FVec Ideal S10000x1 .f32) (b : FVec Ideal S1x64 .f32)
    (p : Fin 10000) (q : Fin 64) :
    k4_pay1 (F := Ideal) a d b (ix2 p q) = a (ix2 p q) * d (ix2 p 0) + b (ix2 0 q) := by
  unfold k4_pay1
  simp only [shapeCast_self]
  show a (ix2 p q) * broadcastTo S10000x64 d broadcasts_S10000x1_S10000x64 (ix2 p q)
      + broadcastTo S10000x64 b broadcasts_S1x64_S10000x64 (ix2 p q) = _
  rw [spread_col d broadcasts_S10000x1_S10000x64 (by decide) p q, spread_row b broadcasts_S1x64_S10000x64 (by decide) p q]

end Cert.KernelIdeal.Pay

end
-- ==== Proof.Layer1.lean ====
/-
  The first launch's result array.

  The launch walks ten row blocks of ten thousand nodes.  At block `t` it loads rows `10000·t … 10000·t + 9999` of
  the features and of the column of source factors, and the whole weight matrix, and writes back the same rows of
  the result.  Entry `(p, q)` of what it writes depends on row `10000·t + p` of the row-blocked operands only, so it
  is row `10000·t + p`, column `q` of any array `G` whose rows are given by the same expression; the blocks tile the
  array, so after the launch the array is `G`.
-/
import proofs.«169862_j32014686224952_1_alg».proof.Proof.Gen.KernelIdeal.Frame
import proofs.«169862_j32014686224952_1_alg».proof.Proof.Payload

set_option maxRecDepth 16384

noncomputable section

namespace Cert.KernelIdeal.Layer1

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem zeros : (![0, 0] : Fin 2 → Nat) = fun _ => 0 := funext fun a => by fin_cases a <;> rfl

/-- Where each window's block sits at point `t`: the row-blocked windows at block row `t`, the weights whole. -/
theorem block_at : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 10 :=
  (by decide +kernel : ∀ t : Fin grid0.N, _)

variable (x : S100000x128.Idx → EReal) (ns : S100000.Idx → EReal) (w : S128x128.Idx → EReal) (G : S100000x128.Idx → EReal)

/-- What point `t` writes back is block `t` of `G`. -/
theorem flushed_eq (c : Dev nD)
    (hX : (V c main_arg0 : S100000x128.Idx → EReal) = x)
    (hS : ∀ r : Fin 100000, (V c main_v11 : S100000x1.Idx → EReal) (ix2 r 0) = ns (ix1 r))
    (hW : (V c main_v13 : S128x128.Idx → EReal) = w)
    (hG : ∀ (r : Fin 100000) (q : Fin 128), G (ix2 r q) = ∑ k : Fin 128, (x (ix2 r k) * ns (ix1 r)) * w (ix2 k q))
    (t : Fin cfg0.N) :
    (dat0 V c).flushed 3 t = ((cfg0.win 3).blk t).view.read (Elt Ideal) G := by
  show (cfg0.win 3).cut (grid0.coords t) ((dat0 V c).after 3 t) = _
  rw [after0_3]
  unfold out0_3
  rw [View.canon_unit_zero zeros]
  simp only [View.ld_unit_zero (S := S10000x128) zeros, View.ld_unit_zero (S := S10000x1) zeros, View.ld_unit_zero (S := S128x128) zeros]
  obtain ⟨e00, e01, e10, e11, e20, e21, e30, e31, ht⟩ := block_at t
  funext j
  obtain ⟨p, q, rfl⟩ : ∃ (p : Fin 10000) (q : Fin 128), j = ix2 p q := ⟨j 0, j 1, eq_ix2 j⟩
  have hr : 10000 * t.val + p.val < 100000 := by have := p.isLt; omega
  refine (Pay.first_apply (iblk0 V c 0 t) (iblk0 V c 1 t) (iblk0 V c 2 t) p q).trans ?_
  have hi : ((cfg0.win 3).blk t).view.emb (ix2 p q) = ix2 (⟨10000 * t.val + p.val, hr⟩ : Fin 100000) q := by
    funext a; apply Fin.ext
    match a with
    | ⟨0, _⟩ => show win0_3.index t (0 : Fin 2) * 10000 + 1 * p.val = 10000 * t.val + p.val; rw [e30]; omega
    | ⟨1, _⟩ => show win0_3.index t (1 : Fin 2) * 128 + 1 * q.val = q.val; rw [e31]; omega
  show _ = G (((cfg0.win 3).blk t).view.emb (ix2 p q))
  rw [hi, hG]
  refine Finset.sum_congr rfl fun k _ => ?_
  have h0 : (iblk0 V c 0 t : S10000x128.Idx → EReal) (ix2 p k) = x (ix2 (⟨10000 * t.val + p.val, hr⟩ : Fin 100000) k) := by
    show (V c main_arg0 : S100000x128.Idx → EReal) (((cfg0.win 0).blk t).view.emb (ix2 p k)) = _
    rw [hX]
    refine congrArg x (funext fun a => Fin.ext ?_)
    match a with
    | ⟨0, _⟩ => show win0_0.index t (0 : Fin 2) * 10000 + 1 * p.val = 10000 * t.val + p.val; rw [e00]; omega
    | ⟨1, _⟩ => show win0_0.index t (1 : Fin 2) * 128 + 1 * k.val = k.val; rw [e01]; omega
  have h1 : (iblk0 V c 1 t : S10000x1.Idx → EReal) (ix2 p 0) = ns (ix1 (⟨10000 * t.val + p.val, hr⟩ : Fin 100000)) := by
    show (V c main_v11 : S100000x1.Idx → EReal) (((cfg0.win 1).blk t).view.emb (ix2 p 0)) = _
    rw [← hS]
    refine congrArg (V c main_v11 : S100000x1.Idx → EReal) (funext fun a => Fin.ext ?_)
    match a with
    | ⟨0, _⟩ => show win0_1.index t (0 : Fin 2) * 10000 + 1 * p.val = 10000 * t.val + p.val; rw [e10]; omega
    | ⟨1, _⟩ => show win0_1.index t (1 : Fin 2) * 1 + 1 * 0 = 0; rw [e11]
  have h2 : ((iblk0 V c 2 t : S128x128.Idx → EReal) (ix2 k q)) = w (ix2 k q) := by
    show (V c main_v13 : S128x128.Idx → EReal) (((cfg0.win 2).blk t).view.emb (ix2 k q)) = _
    rw [hW]
    refine congrArg w (funext fun a => Fin.ext ?_)
    match a with
    | ⟨0, _⟩ => show win0_2.index t (0 : Fin 2) * 128 + 1 * k.val = k.val; rw [e20]; omega
    | ⟨1, _⟩ => show win0_2.index t (1 : Fin 2) * 128 + 1 * q.val = q.val; rw [e21]; omega
  rw [h0, h1, h2]

/-- Every row of the result lies in the block of the point that owns its ten thousand rows. -/
theorem covered (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 10 := N_0
  let t : Fin cfg0.N := ⟨(i 0).val / 10000, by rw [hN]; omega⟩
  obtain ⟨-, -, -, -, -, -, e30, e31, -⟩ := block_at t
  refine ⟨t, flush0_3 t, ?_⟩
  show i ∈ ((View.whole main_v21).slice (win0_3.rect t)).set
  rw [View.set_slice_whole, Rect.mem_set_unit]
  intro a
  match a with
  | ⟨0, _⟩ => show win0_3.index t (0 : Fin 2) * 10000 ≤ (i 0).val ∧ (i 0).val < win0_3.index t (0 : Fin 2) * 10000 + 10000
              rw [e30]; show (i 0).val / 10000 * 10000 ≤ (i 0).val ∧ (i 0).val < (i 0).val / 10000 * 10000 + 10000; omega
  | ⟨1, _⟩ => show win0_3.index t (1 : Fin 2) * 128 ≤ (i 1).val ∧ (i 1).val < win0_3.index t (1 : Fin 2) * 128 + 128
              rw [e31]; omega

/-- After the launch its result array is `G`. -/
theorem result (c : Dev nD)
    (hX : (V c main_arg0 : S100000x128.Idx → EReal) = x)
    (hS : ∀ r : Fin 100000, (V c main_v11 : S100000x1.Idx → EReal) (ix2 r 0) = ns (ix1 r))
    (hW : (V c main_v13 : S128x128.Idx → EReal) = w)
    (hG : ∀ (r : Fin 100000) (q : Fin 128), G (ix2 r q) = ∑ k : Fin 128, (x (ix2 r k) * ns (ix1 r)) * w (ix2 k q)) :
    (dat0 V c).arrAt 3 cfg0.N = G :=
  (dat0 V c).arrAt_eq_of_cover 3 G (fun t _ => flushed_eq V x ns w G c hX hS hW hG t) covered

end Cert.KernelIdeal.Layer1

end
-- ==== Proof.Layer2.lean ====
/-
  A middle launch's result array.

  The launch walks ten row blocks of ten thousand nodes.  At block `t` it loads rows `10000·t … 10000·t + 9999` of
  the previous aggregate and of the two columns of per-node factors, the bias row and the weight matrix whole, and
  writes back the same rows of the result.  Entry `(p, q)` of what it writes depends on row `10000·t + p` of the
  row-blocked operands only, so it is row `10000·t + p`, column `q` of any array `G` whose rows are given by the
  same expression; the blocks tile the array, so after the launch the array is `G`.
-/
import proofs.«169862_j32014686224952_1_alg».proof.Proof.Gen.KernelIdeal.Frame
import proofs.«169862_j32014686224952_1_alg».proof.Proof.Payload

set_option maxRecDepth 16384

noncomputable section

namespace Cert.KernelIdeal.Layer2

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem zeros : (![0, 0] : Fin 2 → Nat) = fun _ => 0 := funext fun a => by fin_cases a <;> rfl

/-- Where each window's block sits at point `t`: the row-blocked windows at block row `t`, the bias and the weights whole. -/
theorem block_at : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 10 :=
  (by decide +kernel : ∀ t : Fin grid1.N, _)

variable (A : S100000x128.Idx → EReal) (nd ns : S100000.Idx → EReal) (b : S128.Idx → EReal) (w : S128x128.Idx → EReal)
  (G : S100000x128.Idx → EReal)

/-- What point `t` writes back is block `t` of `G`. -/
theorem flushed_eq (c : Dev nD)
    (hA : (V c main_v31 : S100000x128.Idx → EReal) = A)
    (hD : ∀ r : Fin 100000, (V c main_v12 : S100000x1.Idx → EReal) (ix2 r 0) = nd (ix1 r))
    (hS : ∀ r : Fin 100000, (V c main_v11 : S100000x1.Idx → EReal) (ix2 r 0) = ns (ix1 r))
    (hB : ∀ k : Fin 128, (V c main_v17 : S1x128.Idx → EReal) (ix2 0 k) = b (ix1 k))
    (hW : (V c main_v14 : S128x128.Idx → EReal) = w)
    (hG : ∀ (r : Fin 100000) (q : Fin 128), G (ix2 r q) = ∑ k : Fin 128,
      (max (A (ix2 r k) * nd (ix1 r) + b (ix1 k)) (Scalar.ofBits (F := Ideal) .f32 0x00000000#32) * ns (ix1 r)) * w (ix2 k q))
    (t : Fin cfg1.N) :
    (dat1 V c).flushed 5 t = ((cfg1.win 5).blk t).view.read (Elt Ideal) G := by
  show (cfg1.win 5).cut (grid1.coords t) ((dat1 V c).after 5 t) = _
  rw [after1_5]
  unfold out1_5
  rw [View.canon_unit_zero zeros]
  simp only [View.ld_unit_zero (S := S10000x128) zeros, View.ld_unit_zero (S := S10000x1) zeros, View.ld_unit_zero (S := S1x128) zeros,
    View.ld_unit_zero (S := S128x128) zeros]
  obtain ⟨e00, e01, e10, e11, e20, e21, e30, e31, e40, e41, e50, e51, ht⟩ := block_at t
  funext j
  obtain ⟨p, q, rfl⟩ : ∃ (p : Fin 10000) (q : Fin 128), j = ix2 p q := ⟨j 0, j 1, eq_ix2 j⟩
  have hr : 10000 * t.val + p.val < 100000 := by have := p.isLt; omega
  refine (Pay.mid_apply (iblk1 V c 0 t) (iblk1 V c 1 t) (iblk1 V c 3 t) (iblk1 V c 2 t) (iblk1 V c 4 t) p q).trans ?_
  have hi : ((cfg1.win 5).blk t).view.emb (ix2 p q) = ix2 (⟨10000 * t.val + p.val, hr⟩ : Fin 100000) q := by
    funext a; apply Fin.ext
    match a with
    | ⟨0, _⟩ => show win1_5.index t (0 : Fin 2) * 10000 + 1 * p.val = 10000 * t.val + p.val; rw [e50]; omega
    | ⟨1, _⟩ => show win1_5.index t (1 : Fin 2) * 128 + 1 * q.val = q.val; rw [e51]; omega
  show _ = G (((cfg1.win 5).blk t).view.emb (ix2 p q))
  rw [hi, hG]
  refine Finset.sum_congr rfl fun k _ => ?_
  have h0 : (iblk1 V c 0 t : S10000x128.Idx → EReal) (ix2 p k) = A (ix2 (⟨10000 * t.val + p.val, hr⟩ : Fin 100000) k) := by
    show (V c main_v31 : S100000x128.Idx → EReal) (((cfg1.win 0).blk t).view.emb (ix2 p k)) = _
    rw [hA]
    refine congrArg A (funext fun a => Fin.ext ?_)
    match a with
    | ⟨0, _⟩ => show win1_0.index t (0 : Fin 2) * 10000 + 1 * p.val = 10000 * t.val + p.val; rw [e00]; omega
    | ⟨1, _⟩ => show win1_0.index t (1 : Fin 2) * 128 + 1 * k.val = k.val; rw [e01]; omega
  have h1 : (iblk1 V c 1 t : S10000x1.Idx → EReal) (ix2 p 0) = nd (ix1 (⟨10000 * t.val + p.val, hr⟩ : Fin 100000)) := by
    show (V c main_v12 : S100000x1.Idx → EReal) (((cfg1.win 1).blk t).view.emb (ix2 p 0)) = _
    rw [← hD]
    refine congrArg (V c main_v12 : S100000x1.Idx → EReal) (funext fun a => Fin.ext ?_)
    match a with
    | ⟨0, _⟩ => show win1_1.index t (0 : Fin 2) * 10000 + 1 * p.val = 10000 * t.val + p.val; rw [e10]; omega
    | ⟨1, _⟩ => show win1_1.index t (1 : Fin 2) * 1 + 1 * 0 = 0; rw [e11]
  have h2 : (iblk1 V c 2 t : S10000x1.Idx → EReal) (ix2 p 0) = ns (ix1 (⟨10000 * t.val + p.val, hr⟩ : Fin 100000)) := by
    show (V c main_v11 : S100000x1.Idx → EReal) (((cfg1.win 2).blk t).view.emb (ix2 p 0)) = _
    rw [← hS]
    refine congrArg (V c main_v11 : S100000x1.Idx → EReal) (funext fun a => Fin.ext ?_)
    match a with
    | ⟨0, _⟩ => show win1_2.index t (0 : Fin 2) * 10000 + 1 * p.val = 10000 * t.val + p.val; rw [e20]; omega
    | ⟨1, _⟩ => show win1_2.index t (1 : Fin 2) * 1 + 1 * 0 = 0; rw [e21]
  have h3 : (iblk1 V c 3 t : S1x128.Idx → EReal) (ix2 0 k) = b (ix1 k) := by
    show (V c main_v17 : S1x128.Idx → EReal) (((cfg1.win 3).blk t).view.emb (ix2 0 k)) = _
    rw [← hB]
    refine congrArg (V c main_v17 : S1x128.Idx → EReal) (funext fun a => Fin.ext ?_)
    match a with
    | ⟨0, _⟩ => show win1_3.index t (0 : Fin 2) * 1 + 1 * 0 = 0; rw [e30]
    | ⟨1, _⟩ => show win1_3.index t (1 : Fin 2) * 128 + 1 * k.val = k.val; rw [e31]; omega
  have h4 : ((iblk1 V c 4 t : S128x128.Idx → EReal) (ix2 k q)) = w (ix2 k q) := by
    show (V c main_v14 : S128x128.Idx → EReal) (((cfg1.win 4).blk t).view.emb (ix2 k q)) = _
    rw [hW]
    refine congrArg w (funext fun a => Fin.ext ?_)
    match a with
    | ⟨0, _⟩ => show win1_4.index t (0 : Fin 2) * 128 + 1 * k.val = k.val; rw [e40]; omega
    | ⟨1, _⟩ => show win1_4.index t (1 : Fin 2) * 128 + 1 * q.val = q.val; rw [e41]; omega
  rw [h0, h1, h2, h3, h4]

/-- Every row of the result lies in the block of the point that owns its ten thousand rows. -/
theorem covered (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 10 := N_1
  let t : Fin cfg1.N := ⟨(i 0).val / 10000, by rw [hN]; omega⟩
  obtain ⟨-, -, -, -, -, -, -, -, -, -, e50, e51, -⟩ := block_at t
  refine ⟨t, flush1_5 t, ?_⟩
  show i ∈ ((View.whole main_v32).slice (win1_5.rect t)).set
  rw [View.set_slice_whole, Rect.mem_set_unit]
  intro a
  match a with
  | ⟨0, _⟩ => show win1_5.index t (0 : Fin 2) * 10000 ≤ (i 0).val ∧ (i 0).val < win1_5.index t (0 : Fin 2) * 10000 + 10000
              rw [e50]; show (i 0).val / 10000 * 10000 ≤ (i 0).val ∧ (i 0).val < (i 0).val / 10000 * 10000 + 10000; omega
  | ⟨1, _⟩ => show win1_5.index t (1 : Fin 2) * 128 ≤ (i 1).val ∧ (i 1).val < win1_5.index t (1 : Fin 2) * 128 + 128
              rw [e51]; omega

/-- After the launch its result array is `G`. -/
theorem result (c : Dev nD)
    (hA : (V c main_v31 : S100000x128.Idx → EReal) = A)
    (hD : ∀ r : Fin 100000, (V c main_v12 : S100000x1.Idx → EReal) (ix2 r 0) = nd (ix1 r))
    (hS : ∀ r : Fin 100000, (V c main_v11 : S100000x1.Idx → EReal) (ix2 r 0) = ns (ix1 r))
    (hB : ∀ k : Fin 128, (V c main_v17 : S1x128.Idx → EReal) (ix2 0 k) = b (ix1 k))
    (hW : (V c main_v14 : S128x128.Idx → EReal) = w)
    (hG : ∀ (r : Fin 100000) (q : Fin 128), G (ix2 r q) = ∑ k : Fin 128,
      (max (A (ix2 r k) * nd (ix1 r) + b (ix1 k)) (Scalar.ofBits (F := Ideal) .f32 0x00000000#32) * ns (ix1 r)) * w (ix2 k q)) :
    (dat1 V c).arrAt 5 cfg1.N = G :=
  (dat1 V c).arrAt_eq_of_cover 5 G (fun t _ => flushed_eq V A nd ns b w G c hA hD hS hB hW hG t) covered

end Cert.KernelIdeal.Layer2

end
-- ==== Proof.Layer3.lean ====
/-
  A middle launch's result array.

  The launch walks ten row blocks of ten thousand nodes.  At block `t` it loads rows `10000·t … 10000·t + 9999` of
  the previous aggregate and of the two columns of per-node factors, the bias row and the weight matrix whole, and
  writes back the same rows of the result.  Entry `(p, q)` of what it writes depends on row `10000·t + p` of the
  row-blocked operands only, so it is row `10000·t + p`, column `q` of any array `G` whose rows are given by the
  same expression; the blocks tile the array, so after the launch the array is `G`.
-/
import proofs.«169862_j32014686224952_1_alg».proof.Proof.Gen.KernelIdeal.Frame
import proofs.«169862_j32014686224952_1_alg».proof.Proof.Payload

set_option maxRecDepth 16384

noncomputable section

namespace Cert.KernelIdeal.Layer3

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem zeros : (![0, 0] : Fin 2 → Nat) = fun _ => 0 := funext fun a => by fin_cases a <;> rfl

/-- Where each window's block sits at point `t`: the row-blocked windows at block row `t`, the bias and the weights whole. -/
theorem block_at : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 ∧ t.val < 10 :=
  (by decide +kernel : ∀ t : Fin grid2.N, _)

variable (A : S100000x128.Idx → EReal) (nd ns : S100000.Idx → EReal) (b : S128.Idx → EReal) (w : S128x128.Idx → EReal)
  (G : S100000x128.Idx → EReal)

/-- What point `t` writes back is block `t` of `G`. -/
theorem flushed_eq (c : Dev nD)
    (hA : (V c main_v42 : S100000x128.Idx → EReal) = A)
    (hD : ∀ r : Fin 100000, (V c main_v12 : S100000x1.Idx → EReal) (ix2 r 0) = nd (ix1 r))
    (hS : ∀ r : Fin 100000, (V c main_v11 : S100000x1.Idx → EReal) (ix2 r 0) = ns (ix1 r))
    (hB : ∀ k : Fin 128, (V c main_v18 : S1x128.Idx → EReal) (ix2 0 k) = b (ix1 k))
    (hW : (V c main_v15 : S128x128.Idx → EReal) = w)
    (hG : ∀ (r : Fin 100000) (q : Fin 128), G (ix2 r q) = ∑ k : Fin 128,
      (max (A (ix2 r k) * nd (ix1 r) + b (ix1 k)) (Scalar.ofBits (F := Ideal) .f32 0x00000000#32) * ns (ix1 r)) * w (ix2 k q))
    (t : Fin cfg2.N) :
    (dat2 V c).flushed 5 t = ((cfg2.win 5).blk t).view.read (Elt Ideal) G := by
  show (cfg2.win 5).cut (grid2.coords t) ((dat2 V c).after 5 t) = _
  rw [after2_5]
  unfold out2_5
  rw [View.canon_unit_zero zeros]
  simp only [View.ld_unit_zero (S := S10000x128) zeros, View.ld_unit_zero (S := S10000x1) zeros, View.ld_unit_zero (S := S1x128) zeros,
    View.ld_unit_zero (S := S128x128) zeros]
  obtain ⟨e00, e01, e10, e11, e20, e21, e30, e31, e40, e41, e50, e51, ht⟩ := block_at t
  funext j
  obtain ⟨p, q, rfl⟩ : ∃ (p : Fin 10000) (q : Fin 128), j = ix2 p q := ⟨j 0, j 1, eq_ix2 j⟩
  have hr : 10000 * t.val + p.val < 100000 := by have := p.isLt; omega
  refine (Pay.mid2_apply (iblk2 V c 0 t) (iblk2 V c 1 t) (iblk2 V c 3 t) (iblk2 V c 2 t) (iblk2 V c 4 t) p q).trans ?_
  have hi : ((cfg2.win 5).blk t).view.emb (ix2 p q) = ix2 (⟨10000 * t.val + p.val, hr⟩ : Fin 100000) q := by
    funext a; apply Fin.ext
    match a with
    | ⟨0, _⟩ => show win2_5.index t (0 : Fin 2) * 10000 + 1 * p.val = 10000 * t.val + p.val; rw [e50]; omega
    | ⟨1, _⟩ => show win2_5.index t (1 : Fin 2) * 128 + 1 * q.val = q.val; rw [e51]; omega
  show _ = G (((cfg2.win 5).blk t).view.emb (ix2 p q))
  rw [hi, hG]
  refine Finset.sum_congr rfl fun k _ => ?_
  have h0 : (iblk2 V c 0 t : S10000x128.Idx → EReal) (ix2 p k) = A (ix2 (⟨10000 * t.val + p.val, hr⟩ : Fin 100000) k) := by
    show (V c main_v42 : S100000x128.Idx → EReal) (((cfg2.win 0).blk t).view.emb (ix2 p k)) = _
    rw [hA]
    refine congrArg A (funext fun a => Fin.ext ?_)
    match a with
    | ⟨0, _⟩ => show win2_0.index t (0 : Fin 2) * 10000 + 1 * p.val = 10000 * t.val + p.val; rw [e00]; omega
    | ⟨1, _⟩ => show win2_0.index t (1 : Fin 2) * 128 + 1 * k.val = k.val; rw [e01]; omega
  have h1 : (iblk2 V c 1 t : S10000x1.Idx → EReal) (ix2 p 0) = nd (ix1 (⟨10000 * t.val + p.val, hr⟩ : Fin 100000)) := by
    show (V c main_v12 : S100000x1.Idx → EReal) (((cfg2.win 1).blk t).view.emb (ix2 p 0)) = _
    rw [← hD]
    refine congrArg (V c main_v12 : S100000x1.Idx → EReal) (funext fun a => Fin.ext ?_)
    match a with
    | ⟨0, _⟩ => show win2_1.index t (0 : Fin 2) * 10000 + 1 * p.val = 10000 * t.val + p.val; rw [e10]; omega
    | ⟨1, _⟩ => show win2_1.index t (1 : Fin 2) * 1 + 1 * 0 = 0; rw [e11]
  have h2 : (iblk2 V c 2 t : S10000x1.Idx → EReal) (ix2 p 0) = ns (ix1 (⟨10000 * t.val + p.val, hr⟩ : Fin 100000)) := by
    show (V c main_v11 : S100000x1.Idx → EReal) (((cfg2.win 2).blk t).view.emb (ix2 p 0)) = _
    rw [← hS]
    refine congrArg (V c main_v11 : S100000x1.Idx → EReal) (funext fun a => Fin.ext ?_)
    match a with
    | ⟨0, _⟩ => show win2_2.index t (0 : Fin 2) * 10000 + 1 * p.val = 10000 * t.val + p.val; rw [e20]; omega
    | ⟨1, _⟩ => show win2_2.index t (1 : Fin 2) * 1 + 1 * 0 = 0; rw [e21]
  have h3 : (iblk2 V c 3 t : S1x128.Idx → EReal) (ix2 0 k) = b (ix1 k) := by
    show (V c main_v18 : S1x128.Idx → EReal) (((cfg2.win 3).blk t).view.emb (ix2 0 k)) = _
    rw [← hB]
    refine congrArg (V c main_v18 : S1x128.Idx → EReal) (funext fun a => Fin.ext ?_)
    match a with
    | ⟨0, _⟩ => show win2_3.index t (0 : Fin 2) * 1 + 1 * 0 = 0; rw [e30]
    | ⟨1, _⟩ => show win2_3.index t (1 : Fin 2) * 128 + 1 * k.val = k.val; rw [e31]; omega
  have h4 : ((iblk2 V c 4 t : S128x128.Idx → EReal) (ix2 k q)) = w (ix2 k q) := by
    show (V c main_v15 : S128x128.Idx → EReal) (((cfg2.win 4).blk t).view.emb (ix2 k q)) = _
    rw [hW]
    refine congrArg w (funext fun a => Fin.ext ?_)
    match a with
    | ⟨0, _⟩ => show win2_4.index t (0 : Fin 2) * 128 + 1 * k.val = k.val; rw [e40]; omega
    | ⟨1, _⟩ => show win2_4.index t (1 : Fin 2) * 128 + 1 * q.val = q.val; rw [e41]; omega
  rw [h0, h1, h2, h3, h4]

/-- Every row of the result lies in the block of the point that owns its ten thousand rows. -/
theorem covered (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 10 := N_2
  let t : Fin cfg2.N := ⟨(i 0).val / 10000, by rw [hN]; omega⟩
  obtain ⟨-, -, -, -, -, -, -, -, -, -, e50, e51, -⟩ := block_at t
  refine ⟨t, flush2_5 t, ?_⟩
  show i ∈ ((View.whole main_v43).slice (win2_5.rect t)).set
  rw [View.set_slice_whole, Rect.mem_set_unit]
  intro a
  match a with
  | ⟨0, _⟩ => show win2_5.index t (0 : Fin 2) * 10000 ≤ (i 0).val ∧ (i 0).val < win2_5.index t (0 : Fin 2) * 10000 + 10000
              rw [e50]; show (i 0).val / 10000 * 10000 ≤ (i 0).val ∧ (i 0).val < (i 0).val / 10000 * 10000 + 10000; omega
  | ⟨1, _⟩ => show win2_5.index t (1 : Fin 2) * 128 ≤ (i 1).val ∧ (i 1).val < win2_5.index t (1 : Fin 2) * 128 + 128
              rw [e51]; omega

/-- After the launch its result array is `G`. -/
theorem result (c : Dev nD)
    (hA : (V c main_v42 : S100000x128.Idx → EReal) = A)
    (hD : ∀ r : Fin 100000, (V c main_v12 : S100000x1.Idx → EReal) (ix2 r 0) = nd (ix1 r))
    (hS : ∀ r : Fin 100000, (V c main_v11 : S100000x1.Idx → EReal) (ix2 r 0) = ns (ix1 r))
    (hB : ∀ k : Fin 128, (V c main_v18 : S1x128.Idx → EReal) (ix2 0 k) = b (ix1 k))
    (hW : (V c main_v15 : S128x128.Idx → EReal) = w)
    (hG : ∀ (r : Fin 100000) (q : Fin 128), G (ix2 r q) = ∑ k : Fin 128,
      (max (A (ix2 r k) * nd (ix1 r) + b (ix1 k)) (Scalar.ofBits (F := Ideal) .f32 0x00000000#32) * ns (ix1 r)) * w (ix2 k q)) :
    (dat2 V c).arrAt 5 cfg2.N = G :=
  (dat2 V c).arrAt_eq_of_cover 5 G (fun t _ => flushed_eq V A nd ns b w G c hA hD hS hB hW hG t) covered

end Cert.KernelIdeal.Layer3

end
-- ==== Proof.Layer4.lean ====
/-
  A middle launch's result array.

  The launch walks ten row blocks of ten thousand nodes.  At block `t` it loads rows `10000·t … 10000·t + 9999` of
  the previous aggregate and of the two columns of per-node factors, the bias row and the weight matrix whole, and
  writes back the same rows of the result.  Entry `(p, q)` of what it writes depends on row `10000·t + p` of the
  row-blocked operands only, so it is row `10000·t + p`, column `q` of any array `G` whose rows are given by the
  same expression; the blocks tile the array, so after the launch the array is `G`.
-/
import proofs.«169862_j32014686224952_1_alg».proof.Proof.Gen.KernelIdeal.Frame
import proofs.«169862_j32014686224952_1_alg».proof.Proof.Payload

set_option maxRecDepth 16384

noncomputable section

namespace Cert.KernelIdeal.Layer4

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem zeros : (![0, 0] : Fin 2 → Nat) = fun _ => 0 := funext fun a => by fin_cases a <;> rfl

/-- Where each window's block sits at point `t`: the row-blocked windows at block row `t`, the bias and the weights whole. -/
theorem block_at : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 ∧ t.val < 10 :=
  (by decide +kernel : ∀ t : Fin grid3.N, _)

variable (A : S100000x128.Idx → EReal) (nd ns : S100000.Idx → EReal) (b : S128.Idx → EReal) (w : S128x64.Idx → EReal)
  (G : S100000x64.Idx → EReal)

/-- What point `t` writes back is block `t` of `G`. -/
theorem flushed_eq (c : Dev nD)
    (hA : (V c main_v53 : S100000x128.Idx → EReal) = A)
    (hD : ∀ r : Fin 100000, (V c main_v12 : S100000x1.Idx → EReal) (ix2 r 0) = nd (ix1 r))
    (hS : ∀ r : Fin 100000, (V c main_v11 : S100000x1.Idx → EReal) (ix2 r 0) = ns (ix1 r))
    (hB : ∀ k : Fin 128, (V c main_v19 : S1x128.Idx → EReal) (ix2 0 k) = b (ix1 k))
    (hW : (V c main_v16 : S128x64.Idx → EReal) = w)
    (hG : ∀ (r : Fin 100000) (q : Fin 64), G (ix2 r q) = ∑ k : Fin 128,
      (max (A (ix2 r k) * nd (ix1 r) + b (ix1 k)) (Scalar.ofBits (F := Ideal) .f32 0x00000000#32) * ns (ix1 r)) * w (ix2 k q))
    (t : Fin cfg3.N) :
    (dat3 V c).flushed 5 t = ((cfg3.win 5).blk t).view.read (Elt Ideal) G := by
  show (cfg3.win 5).cut (grid3.coords t) ((dat3 V c).after 5 t) = _
  rw [after3_5]
  unfold out3_5
  rw [View.canon_unit_zero zeros]
  simp only [View.ld_unit_zero (S := S10000x128) zeros, View.ld_unit_zero (S := S10000x1) zeros, View.ld_unit_zero (S := S1x128) zeros,
    View.ld_unit_zero (S := S128x64) zeros]
  obtain ⟨e00, e01, e10, e11, e20, e21, e30, e31, e40, e41, e50, e51, ht⟩ := block_at t
  funext j
  obtain ⟨p, q, rfl⟩ : ∃ (p : Fin 10000) (q : Fin 64), j = ix2 p q := ⟨j 0, j 1, eq_ix2 j⟩
  have hr : 10000 * t.val + p.val < 100000 := by have := p.isLt; omega
  refine (Pay.mid64_apply (iblk3 V c 0 t) (iblk3 V c 1 t) (iblk3 V c 3 t) (iblk3 V c 2 t) (iblk3 V c 4 t) p q).trans ?_
  have hi : ((cfg3.win 5).blk t).view.emb (ix2 p q) = ix2 (⟨10000 * t.val + p.val, hr⟩ : Fin 100000) q := by
    funext a; apply Fin.ext
    match a with
    | ⟨0, _⟩ => show win3_5.index t (0 : Fin 2) * 10000 + 1 * p.val = 10000 * t.val + p.val; rw [e50]; omega
    | ⟨1, _⟩ => show win3_5.index t (1 : Fin 2) * 64 + 1 * q.val = q.val; rw [e51]; omega
  show _ = G (((cfg3.win 5).blk t).view.emb (ix2 p q))
  rw [hi, hG]
  refine Finset.sum_congr rfl fun k _ => ?_
  have h0 : (iblk3 V c 0 t : S10000x128.Idx → EReal) (ix2 p k) = A (ix2 (⟨10000 * t.val + p.val, hr⟩ : Fin 100000) k) := by
    show (V c main_v53 : S100000x128.Idx → EReal) (((cfg3.win 0).blk t).view.emb (ix2 p k)) = _
    rw [hA]
    refine congrArg A (funext fun a => Fin.ext ?_)
    match a with
    | ⟨0, _⟩ => show win3_0.index t (0 : Fin 2) * 10000 + 1 * p.val = 10000 * t.val + p.val; rw [e00]; omega
    | ⟨1, _⟩ => show win3_0.index t (1 : Fin 2) * 128 + 1 * k.val = k.val; rw [e01]; omega
  have h1 : (iblk3 V c 1 t : S10000x1.Idx → EReal) (ix2 p 0) = nd (ix1 (⟨10000 * t.val + p.val, hr⟩ : Fin 100000)) := by
    show (V c main_v12 : S100000x1.Idx → EReal) (((cfg3.win 1).blk t).view.emb (ix2 p 0)) = _
    rw [← hD]
    refine congrArg (V c main_v12 : S100000x1.Idx → EReal) (funext fun a => Fin.ext ?_)
    match a with
    | ⟨0, _⟩ => show win3_1.index t (0 : Fin 2) * 10000 + 1 * p.val = 10000 * t.val + p.val; rw [e10]; omega
    | ⟨1, _⟩ => show win3_1.index t (1 : Fin 2) * 1 + 1 * 0 = 0; rw [e11]
  have h2 : (iblk3 V c 2 t : S10000x1.Idx → EReal) (ix2 p 0) = ns (ix1 (⟨10000 * t.val + p.val, hr⟩ : Fin 100000)) := by
    show (V c main_v11 : S100000x1.Idx → EReal) (((cfg3.win 2).blk t).view.emb (ix2 p 0)) = _
    rw [← hS]
    refine congrArg (V c main_v11 : S100000x1.Idx → EReal) (funext fun a => Fin.ext ?_)
    match a with
    | ⟨0, _⟩ => show win3_2.index t (0 : Fin 2) * 10000 + 1 * p.val = 10000 * t.val + p.val; rw [e20]; omega
    | ⟨1, _⟩ => show win3_2.index t (1 : Fin 2) * 1 + 1 * 0 = 0; rw [e21]
  have h3 : (iblk3 V c 3 t : S1x128.Idx → EReal) (ix2 0 k) = b (ix1 k) := by
    show (V c main_v19 : S1x128.Idx → EReal) (((cfg3.win 3).blk t).view.emb (ix2 0 k)) = _
    rw [← hB]
    refine congrArg (V c main_v19 : S1x128.Idx → EReal) (funext fun a => Fin.ext ?_)
    match a with
    | ⟨0, _⟩ => show win3_3.index t (0 : Fin 2) * 1 + 1 * 0 = 0; rw [e30]
    | ⟨1, _⟩ => show win3_3.index t (1 : Fin 2) * 128 + 1 * k.val = k.val; rw [e31]; omega
  have h4 : ((iblk3 V c 4 t : S128x64.Idx → EReal) (ix2 k q)) = w (ix2 k q) := by
    show (V c main_v16 : S128x64.Idx → EReal) (((cfg3.win 4).blk t).view.emb (ix2 k q)) = _
    rw [hW]
    refine congrArg w (funext fun a => Fin.ext ?_)
    match a with
    | ⟨0, _⟩ => show win3_4.index t (0 : Fin 2) * 128 + 1 * k.val = k.val; rw [e40]; omega
    | ⟨1, _⟩ => show win3_4.index t (1 : Fin 2) * 64 + 1 * q.val = q.val; rw [e41]; omega
  rw [h0, h1, h2, h3, h4]

/-- Every row of the result lies in the block of the point that owns its ten thousand rows. -/
theorem covered (i : S100000x64.Idx) : ∃ t : Fin cfg3.N, (cfg3.win 5).flush t = true ∧ i ∈ ((cfg3.win 5).blk t).view.set := by
  have hi0 : (i 0).val < 100000 := (i 0).isLt
  have hi1 : (i 1).val < 64 := (i 1).isLt
  have hN : cfg3.N = 10 := N_3
  let t : Fin cfg3.N := ⟨(i 0).val / 10000, by rw [hN]; omega⟩
  obtain ⟨-, -, -, -, -, -, -, -, -, -, e50, e51, -⟩ := block_at t
  refine ⟨t, flush3_5 t, ?_⟩
  show i ∈ ((View.whole main_v54).slice (win3_5.rect t)).set
  rw [View.set_slice_whole, Rect.mem_set_unit]
  intro a
  match a with
  | ⟨0, _⟩ => show win3_5.index t (0 : Fin 2) * 10000 ≤ (i 0).val ∧ (i 0).val < win3_5.index t (0 : Fin 2) * 10000 + 10000
              rw [e50]; show (i 0).val / 10000 * 10000 ≤ (i 0).val ∧ (i 0).val < (i 0).val / 10000 * 10000 + 10000; omega
  | ⟨1, _⟩ => show win3_5.index t (1 : Fin 2) * 64 ≤ (i 1).val ∧ (i 1).val < win3_5.index t (1 : Fin 2) * 64 + 64
              rw [e51]; omega

/-- After the launch its result array is `G`. -/
theorem result (c : Dev nD)
    (hA : (V c main_v53 : S100000x128.Idx → EReal) = A)
    (hD : ∀ r : Fin 100000, (V c main_v12 : S100000x1.Idx → EReal) (ix2 r 0) = nd (ix1 r))
    (hS : ∀ r : Fin 100000, (V c main_v11 : S100000x1.Idx → EReal) (ix2 r 0) = ns (ix1 r))
    (hB : ∀ k : Fin 128, (V c main_v19 : S1x128.Idx → EReal) (ix2 0 k) = b (ix1 k))
    (hW : (V c main_v16 : S128x64.Idx → EReal) = w)
    (hG : ∀ (r : Fin 100000) (q : Fin 64), G (ix2 r q) = ∑ k : Fin 128,
      (max (A (ix2 r k) * nd (ix1 r) + b (ix1 k)) (Scalar.ofBits (F := Ideal) .f32 0x00000000#32) * ns (ix1 r)) * w (ix2 k q)) :
    (dat3 V c).arrAt 5 cfg3.N = G :=
  (dat3 V c).arrAt_eq_of_cover 5 G (fun t _ => flushed_eq V A nd ns b w G c hA hD hS hB hW hG t) covered

end Cert.KernelIdeal.Layer4

end
-- ==== Proof.Layer5.lean ====
/-
  The last launch's result array.

  The launch walks ten row blocks of ten thousand nodes.  At block `t` it loads rows `10000·t … 10000·t + 9999` of
  the last aggregate and of the column of destination factors, and the bias row whole, and writes back the same rows
  of the result: entry `(p, q)` is the aggregate's entry scaled by the row's factor and shifted by the bias of column
  `q`.  The blocks tile the array, so after the launch the array is any `G` given row by row by that expression.
-/
import proofs.«169862_j32014686224952_1_alg».proof.Proof.Gen.KernelIdeal.Frame
import proofs.«169862_j32014686224952_1_alg».proof.Proof.Payload

set_option maxRecDepth 16384

noncomputable section

namespace Cert.KernelIdeal.Layer5

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem zeros : (![0, 0] : Fin 2 → Nat) = fun _ => 0 := funext fun a => by fin_cases a <;> rfl

/-- Where each window's block sits at point `t`: the row-blocked windows at block row `t`, the bias whole. -/
theorem block_at : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 ∧ t.val < 10 :=
  (by decide +kernel : ∀ t : Fin grid4.N, _)

variable (A : S100000x64.Idx → EReal) (nd : S100000.Idx → EReal) (b : S64.Idx → EReal) (G : S100000x64.Idx → EReal)

/-- What point `t` writes back is block `t` of `G`. -/
theorem flushed_eq (c : Dev nD)
    (hA : (V c main_v64 : S100000x64.Idx → EReal) = A)
    (hD : ∀ r : Fin 100000, (V c main_v12 : S100000x1.Idx → EReal) (ix2 r 0) = nd (ix1 r))
    (hB : ∀ k : Fin 64, (V c main_v20 : S1x64.Idx → EReal) (ix2 0 k) = b (ix1 k))
    (hG : ∀ (r : Fin 100000) (q : Fin 64), G (ix2 r q) = A (ix2 r q) * nd (ix1 r) + b (ix1 q))
    (t : Fin cfg4.N) :
    (dat4 V c).flushed 3 t = ((cfg4.win 3).blk t).view.read (Elt Ideal) G := by
  show (cfg4.win 3).cut (grid4.coords t) ((dat4 V c).after 3 t) = _
  rw [after4_3]
  unfold out4_3
  rw [View.canon_unit_zero zeros]
  simp only [View.ld_unit_zero (S := S10000x64) zeros, View.ld_unit_zero (S := S10000x1) zeros, View.ld_unit_zero (S := S1x64) zeros]
  obtain ⟨e00, e01, e10, e11, e20, e21, e30, e31, ht⟩ := block_at t
  funext j
  obtain ⟨p, q, rfl⟩ : ∃ (p : Fin 10000) (q : Fin 64), j = ix2 p q := ⟨j 0, j 1, eq_ix2 j⟩
  have hr : 10000 * t.val + p.val < 100000 := by have := p.isLt; omega
  refine (Pay.last_apply (iblk4 V c 0 t) (iblk4 V c 1 t) (iblk4 V c 2 t) p q).trans ?_
  have hi : ((cfg4.win 3).blk t).view.emb (ix2 p q) = ix2 (⟨10000 * t.val + p.val, hr⟩ : Fin 100000) q := by
    funext a; apply Fin.ext
    match a with
    | ⟨0, _⟩ => show win4_3.index t (0 : Fin 2) * 10000 + 1 * p.val = 10000 * t.val + p.val; rw [e30]; omega
    | ⟨1, _⟩ => show win4_3.index t (1 : Fin 2) * 64 + 1 * q.val = q.val; rw [e31]; omega
  show _ = G (((cfg4.win 3).blk t).view.emb (ix2 p q))
  rw [hi, hG]
  have h0 : (iblk4 V c 0 t : S10000x64.Idx → EReal) (ix2 p q) = A (ix2 (⟨10000 * t.val + p.val, hr⟩ : Fin 100000) q) := by
    show (V c main_v64 : S100000x64.Idx → EReal) (((cfg4.win 0).blk t).view.emb (ix2 p q)) = _
    rw [hA]
    refine congrArg A (funext fun a => Fin.ext ?_)
    match a with
    | ⟨0, _⟩ => show win4_0.index t (0 : Fin 2) * 10000 + 1 * p.val = 10000 * t.val + p.val; rw [e00]; omega
    | ⟨1, _⟩ => show win4_0.index t (1 : Fin 2) * 64 + 1 * q.val = q.val; rw [e01]; omega
  have h1 : (iblk4 V c 1 t : S10000x1.Idx → EReal) (ix2 p 0) = nd (ix1 (⟨10000 * t.val + p.val, hr⟩ : Fin 100000)) := by
    show (V c main_v12 : S100000x1.Idx → EReal) (((cfg4.win 1).blk t).view.emb (ix2 p 0)) = _
    rw [← hD]
    refine congrArg (V c main_v12 : S100000x1.Idx → EReal) (funext fun a => Fin.ext ?_)
    match a with
    | ⟨0, _⟩ => show win4_1.index t (0 : Fin 2) * 10000 + 1 * p.val = 10000 * t.val + p.val; rw [e10]; omega
    | ⟨1, _⟩ => show win4_1.index t (1 : Fin 2) * 1 + 1 * 0 = 0; rw [e11]
  have h2 : (iblk4 V c 2 t : S1x64.Idx → EReal) (ix2 0 q) = b (ix1 q) := by
    show (V c main_v20 : S1x64.Idx → EReal) (((cfg4.win 2).blk t).view.emb (ix2 0 q)) = _
    rw [← hB]
    refine congrArg (V c main_v20 : S1x64.Idx → EReal) (funext fun a => Fin.ext ?_)
    match a with
    | ⟨0, _⟩ => show win4_2.index t (0 : Fin 2) * 1 + 1 * 0 = 0; rw [e20]
    | ⟨1, _⟩ => show win4_2.index t (1 : Fin 2) * 64 + 1 * q.val = q.val; rw [e21]; omega
  rw [h0, h1, h2]

/-- Every row of the result lies in the block of the point that owns its ten thousand rows. -/
theorem covered (i : S100000x64.Idx) : ∃ t : Fin cfg4.N, (cfg4.win 3).flush t = true ∧ i ∈ ((cfg4.win 3).blk t).view.set := by
  have hi0 : (i 0).val < 100000 := (i 0).isLt
  have hi1 : (i 1).val < 64 := (i 1).isLt
  have hN : cfg4.N = 10 := N_4
  let t : Fin cfg4.N := ⟨(i 0).val / 10000, by rw [hN]; omega⟩
  obtain ⟨-, -, -, -, -, -, e30, e31, -⟩ := block_at t
  refine ⟨t, flush4_3 t, ?_⟩
  show i ∈ ((View.whole main_v65).slice (win4_3.rect t)).set
  rw [View.set_slice_whole, Rect.mem_set_unit]
  intro a
  match a with
  | ⟨0, _⟩ => show win4_3.index t (0 : Fin 2) * 10000 ≤ (i 0).val ∧ (i 0).val < win4_3.index t (0 : Fin 2) * 10000 + 10000
              rw [e30]; show (i 0).val / 10000 * 10000 ≤ (i 0).val ∧ (i 0).val < (i 0).val / 10000 * 10000 + 10000; omega
  | ⟨1, _⟩ => show win4_3.index t (1 : Fin 2) * 64 ≤ (i 1).val ∧ (i 1).val < win4_3.index t (1 : Fin 2) * 64 + 64
              rw [e31]; omega

/-- After the launch its result array is `G`. -/
theorem result (c : Dev nD)
    (hA : (V c main_v64 : S100000x64.Idx → EReal) = A)
    (hD : ∀ r : Fin 100000, (V c main_v12 : S100000x1.Idx → EReal) (ix2 r 0) = nd (ix1 r))
    (hB : ∀ k : Fin 64, (V c main_v20 : S1x64.Idx → EReal) (ix2 0 k) = b (ix1 k))
    (hG : ∀ (r : Fin 100000) (q : Fin 64), G (ix2 r q) = A (ix2 r q) * nd (ix1 r) + b (ix1 q)) :
    (dat4 V c).arrAt 3 cfg4.N = G :=
  (dat4 V c).arrAt_eq_of_cover 3 G (fun t _ => flushed_eq V A nd b G c hA hD hB hG t) covered

end Cert.KernelIdeal.Layer5

end
-- ==== Proof.RefStages.lean ====
/-
  The reference's dense stages read at an index.

  Between its gather/scatter steps the reference computes, row by row, the same expressions the kernels store: the
  features (or the previous aggregate, scaled by the destination factor, shifted by the bias and clamped below at
  zero) scaled by the source factor and multiplied into the weights; after the last aggregation only the scale and
  the shift.  Each stage is read here at row `r` and column `q` as one explicit expression, with every broadcast
  resolved to the entry it copies.
-/
import proofs.«169862_j32014686224952_1_alg».proof.Proof.Gen.ReferenceIdeal.Read

noncomputable section

namespace Cert.ReferenceIdeal.Stages

open Cert.ReferenceIdeal Cert.ReferenceIdeal.Read Idealize.ShloMosaic Idealize.ShloMosaic.ValueIdx
open scoped BigOperators

variable (x0 : (⟨S100000x128, .f32⟩ : BufTy).Contents (Elt Ideal)) (x1 x2 : (⟨S1600000, .i32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))
  (x7 : (⟨S128x128, .f32⟩ : BufTy).Contents (Elt Ideal)) (x8 : (⟨S128, .f32⟩ : BufTy).Contents (Elt Ideal))
  (x9 : (⟨S128x64, .f32⟩ : BufTy).Contents (Elt Ideal)) (x10 : (⟨S64, .f32⟩ : BufTy).Contents (Elt Ideal))

/-- The first layer's product at `(r, q)`: `∑ₖ (x[r,k] · s[r]) · w[k,q]`, `s` the source factor. -/
theorem dense1_apply (r : Fin 100000) (q : Fin 128) :
    val_main_v14 (F := Ideal) x0 x1 x3 (ix2 r q)
      = ∑ k : Fin 128, (x0 (ix2 r k) * val_main_v8 (F := Ideal) x1 (ix1 r)) * x3 (ix2 k q) := by
  rw [val_main_v14_apply]
  refine Finset.sum_congr rfl fun k _ => ?_
  have el : lidx_main_v14 (ix2 r q) k = ix2 r k := funext fun a => by match a with | ⟨0, _⟩ => rfl | ⟨1, _⟩ => rfl
  have er : ridx_main_v14 (ix2 r q) k = ix2 k q := funext fun a => by match a with | ⟨0, _⟩ => rfl | ⟨1, _⟩ => rfl
  have es : idx_main_v11 (idx_main_v12 (ix2 r k)) = ix1 r := funext fun a => by match a with | ⟨0, _⟩ => rfl
  rw [el, er, val_main_v13_apply, val_main_v12_apply, val_main_v11_apply, es]
  rfl

/-- Layer 2's product at `(r, q)`: `∑ₖ (max (a[r,k] · d[r] + b[k]) 0 · s[r]) · w[k,q]`, `a` the previous aggregate, `d` and `s`
    the destination and source factors. -/
theorem dense2_apply (r : Fin 100000) (q : Fin 128) :
    val_main_v35 (F := Ideal) x0 x1 x2 x3 x4 x5 (ix2 r q)
      = ∑ k : Fin 128, (max (val_main_v24 (F := Ideal) x0 x1 x2 x3 (ix2 r k) * val_main_v10 (F := Ideal) x2 (ix1 r) + x4 (ix1 k))
            (Scalar.ofBits (F := Ideal) .f32 0x00000000#32) * val_main_v8 (F := Ideal) x1 (ix1 r)) * x5 (ix2 k q) := by
  rw [val_main_v35_apply]
  refine Finset.sum_congr rfl fun k _ => ?_
  have el : lidx_main_v35 (ix2 r q) k = ix2 r k := funext fun a => by match a with | ⟨0, _⟩ => rfl | ⟨1, _⟩ => rfl
  have er : ridx_main_v35 (ix2 r q) k = ix2 k q := funext fun a => by match a with | ⟨0, _⟩ => rfl | ⟨1, _⟩ => rfl
  have es : idx_main_v32 (idx_main_v33 (ix2 r k)) = ix1 r := funext fun a => by match a with | ⟨0, _⟩ => rfl
  have ed : idx_main_v25 (idx_main_v26 (ix2 r k)) = ix1 r := funext fun a => by match a with | ⟨0, _⟩ => rfl
  have eb : idx_main_v28 (idx_main_v29 (ix2 r k)) = ix1 k := funext fun a => by match a with | ⟨0, _⟩ => rfl
  rw [el, er, val_main_v34_apply, val_main_v33_apply, val_main_v32_apply, es, val_main_v31_apply, val_main_v30_apply,
    val_main_v29_apply, val_main_v28_apply, eb, val_main_v27_apply, val_main_v26_apply, val_main_v25_apply, ed]
  rfl

/-- Layer 3's product at `(r, q)`: `∑ₖ (max (a[r,k] · d[r] + b[k]) 0 · s[r]) · w[k,q]`, `a` the previous aggregate, `d` and `s`
    the destination and source factors. -/
theorem dense3_apply (r : Fin 100000) (q : Fin 128) :
    val_main_v56 (F := Ideal) x0 x1 x2 x3 x4 x5 x6 x7 (ix2 r q)
      = ∑ k : Fin 128, (max (val_main_v45 (F := Ideal) x0 x1 x2 x3 x4 x5 (ix2 r k) * val_main_v10 (F := Ideal) x2 (ix1 r) + x6 (ix1 k))
            (Scalar.ofBits (F := Ideal) .f32 0x00000000#32) * val_main_v8 (F := Ideal) x1 (ix1 r)) * x7 (ix2 k q) := by
  rw [val_main_v56_apply]
  refine Finset.sum_congr rfl fun k _ => ?_
  have el : lidx_main_v56 (ix2 r q) k = ix2 r k := funext fun a => by match a with | ⟨0, _⟩ => rfl | ⟨1, _⟩ => rfl
  have er : ridx_main_v56 (ix2 r q) k = ix2 k q := funext fun a => by match a with | ⟨0, _⟩ => rfl | ⟨1, _⟩ => rfl
  have es : idx_main_v53 (idx_main_v54 (ix2 r k)) = ix1 r := funext fun a => by match a with | ⟨0, _⟩ => rfl
  have ed : idx_main_v46 (idx_main_v47 (ix2 r k)) = ix1 r := funext fun a => by match a with | ⟨0, _⟩ => rfl
  have eb : idx_main_v49 (idx_main_v50 (ix2 r k)) = ix1 k := funext fun a => by match a with | ⟨0, _⟩ => rfl
  rw [el, er, val_main_v55_apply, val_main_v54_apply, val_main_v53_apply, es, val_main_v52_apply, val_main_v51_apply,
    val_main_v50_apply, val_main_v49_apply, eb, val_main_v48_apply, val_main_v47_apply, val_main_v46_apply, ed]
  rfl

/-- Layer 4's product at `(r, q)`: `∑ₖ (max (a[r,k] · d[r] + b[k]) 0 · s[r]) · w[k,q]`, `a` the previous aggregate, `d` and `s`
    the destination and source factors. -/
theorem dense4_apply (r : Fin 100000) (q : Fin 64) :
    val_main_v77 (F := Ideal) x0 x1 x2 x3 x4 x5 x6 x7 x8 x9 (ix2 r q)
      = ∑ k : Fin 128, (max (val_main_v66 (F := Ideal) x0 x1 x2 x3 x4 x5 x6 x7 (ix2 r k) * val_main_v10 (F := Ideal) x2 (ix1 r) + x8 (ix1 k))
            (Scalar.ofBits (F := Ideal) .f32 0x00000000#32) * val_main_v8 (F := Ideal) x1 (ix1 r)) * x9 (ix2 k q) := by
  rw [val_main_v77_apply]
  refine Finset.sum_congr rfl fun k _ => ?_
  have el : lidx_main_v77 (ix2 r q) k = ix2 r k := funext fun a => by match a with | ⟨0, _⟩ => rfl | ⟨1, _⟩ => rfl
  have er : ridx_main_v77 (ix2 r q) k = ix2 k q := funext fun a => by match a with | ⟨0, _⟩ => rfl | ⟨1, _⟩ => rfl
  have es : idx_main_v74 (idx_main_v75 (ix2 r k)) = ix1 r := funext fun a => by match a with | ⟨0, _⟩ => rfl
  have ed : idx_main_v67 (idx_main_v68 (ix2 r k)) = ix1 r := funext fun a => by match a with | ⟨0, _⟩ => rfl
  have eb : idx_main_v70 (idx_main_v71 (ix2 r k)) = ix1 k := funext fun a => by match a with | ⟨0, _⟩ => rfl
  rw [el, er, val_main_v76_apply, val_main_v75_apply, val_main_v74_apply, es, val_main_v73_apply, val_main_v72_apply,
    val_main_v71_apply, val_main_v70_apply, eb, val_main_v69_apply, val_main_v68_apply, val_main_v67_apply, ed]
  rfl

/-- The result at `(r, q)`: the last aggregate scaled by the destination factor and shifted by the bias. -/
theorem final_apply (r : Fin 100000) (q : Fin 64) :
    val_main_v93 (F := Ideal) x0 x1 x2 x3 x4 x5 x6 x7 x8 x9 x10 (ix2 r q)
      = val_main_v87 (F := Ideal) x0 x1 x2 x3 x4 x5 x6 x7 x8 x9 (ix2 r q) * val_main_v10 (F := Ideal) x2 (ix1 r) + x10 (ix1 q) := by
  have ed : idx_main_v88 (idx_main_v89 (ix2 r q)) = ix1 r := funext fun a => by match a with | ⟨0, _⟩ => rfl
  have eb : idx_main_v91 (idx_main_v92 (ix2 r q)) = ix1 q := funext fun a => by match a with | ⟨0, _⟩ => rfl
  rw [val_main_v93_apply, val_main_v92_apply, val_main_v91_apply, eb, val_main_v90_apply, val_main_v89_apply, val_main_v88_apply, ed]
  rfl

end Cert.ReferenceIdeal.Stages

end
-- ==== Proof.Chain.lean ====
/-
  The kernel's result is the reference's result.

  With the fixed buffers carried across every boundary, each launch's result is the reference's dense stage of the
  same layer (the launch modules), and each gather/scatter stretch is the reference's aggregation of that stage: the
  same operations on the same operands.  At the end the result buffer holds the reference's last stage of the eleven
  arguments.
-/
import proofs.«169862_j32014686224952_1_alg».proof.Proof.KernelRun
import proofs.«169862_j32014686224952_1_alg».proof.Proof.Entry
import proofs.«169862_j32014686224952_1_alg».proof.Proof.Layer1
import proofs.«169862_j32014686224952_1_alg».proof.Proof.Layer2
import proofs.«169862_j32014686224952_1_alg».proof.Proof.Layer3
import proofs.«169862_j32014686224952_1_alg».proof.Proof.Layer4
import proofs.«169862_j32014686224952_1_alg».proof.Proof.Layer5
import proofs.«169862_j32014686224952_1_alg».proof.Proof.RefStages

set_option maxRecDepth 16384

noncomputable section

namespace Cert.KernelIdeal.Chain

open Cert.KernelIdeal Cert.KernelIdeal.Gen Idealize.ShloMosaic Idealize.ShloMosaic.TcCoe Idealize.SL.Sem
open Idealize.ShloMosaic.ValueIdx Idealize.ShloMosaic.StableHlo
open Cert.ReferenceIdeal.Read (val_main_v8 val_main_v10 val_main_v14 val_main_v24 val_main_v35 val_main_v45 val_main_v56 val_main_v66
  val_main_v77 val_main_v87 val_main_v93)

variable (m : (ℓ : Loc nD τ sig) → Buf (Elt Ideal) ℓ) (ρ : Dev nD → PrngReg) (c : Dev nD)

theorem static6 : Static m c (W6 m ρ c) := (static5 m ρ c).of_same (same_launch0 m ρ c)
theorem static7 : Static m c (W7 m ρ c) := (static6 m ρ c).of_same (same_stretch1 (W6 m ρ c))
theorem static8 : Static m c (W8 m ρ c) := (static7 m ρ c).of_same (same_launch1 m ρ c)
theorem static9 : Static m c (W9 m ρ c) := (static8 m ρ c).of_same (same_stretch2 (W8 m ρ c))
theorem static10 : Static m c (W10 m ρ c) := (static9 m ρ c).of_same (same_launch2 m ρ c)
theorem static11 : Static m c (W11 m ρ c) := (static10 m ρ c).of_same (same_stretch3 (W10 m ρ c))
theorem static12 : Static m c (W12 m ρ c) := (static11 m ρ c).of_same (same_launch3 m ρ c)
theorem static13 : Static m c (W13 m ρ c) := (static12 m ρ c).of_same (same_stretch4 (W12 m ρ c))

/-! ## Layer by layer -/

/-- The first launch leaves the reference's first dense stage. -/
theorem dense1 : W6 m ρ c (Proc.devRef .tc main_v21) = val_main_v14 (F := Ideal) (x0 m c) (x1 m c) (x3 m c) :=
  (W6_arr m ρ c 3).trans (Layer1.result (V5 m ρ) (x0 m c) (val_main_v8 (F := Ideal) (x1 m c)) (x3 m c) _ c
    (entry_x m ρ c) (static5 m ρ c).ns (entry_w1 m ρ c) (fun r q => Cert.ReferenceIdeal.Stages.dense1_apply _ _ _ r q))

/-- The gather by source and scatter-add by destination of it is the reference's first aggregate. -/
theorem agg1 : W7 m ρ c (Proc.devRef .tc main_v31) = val_main_v24 (F := Ideal) (x0 m c) (x1 m c) (x2 m c) (x3 m c) := by
  show StableHlo.after hostOps1 (W6 m ρ c) (Proc.devRef .tc main_v31) = _
  after_results_simp
  rw [dense1 m ρ c, (static6 m ρ c).src, (static6 m ρ c).dst]
  rfl

theorem dense2 : W8 m ρ c (Proc.devRef .tc main_v32) = val_main_v35 (F := Ideal) (x0 m c) (x1 m c) (x2 m c) (x3 m c) (x4 m c) (x5 m c) :=
  (W8_arr m ρ c 5).trans (Layer2.result (V7 m ρ) _ (val_main_v10 (F := Ideal) (x2 m c)) (val_main_v8 (F := Ideal) (x1 m c)) (x4 m c) (x5 m c) _ c
    (agg1 m ρ c) (static7 m ρ c).nd (static7 m ρ c).ns (static7 m ρ c).b1 (static7 m ρ c).w2
    (fun r q => Cert.ReferenceIdeal.Stages.dense2_apply _ _ _ _ _ _ r q))

theorem agg2 : W9 m ρ c (Proc.devRef .tc main_v42) = val_main_v45 (F := Ideal) (x0 m c) (x1 m c) (x2 m c) (x3 m c) (x4 m c) (x5 m c) := by
  show StableHlo.after hostOps2 (W8 m ρ c) (Proc.devRef .tc main_v42) = _
  after_results_simp
  rw [dense2 m ρ c, (static8 m ρ c).src, (static8 m ρ c).dst]
  rfl

theorem dense3 : W10 m ρ c (Proc.devRef .tc main_v43) = val_main_v56 (F := Ideal) (x0 m c) (x1 m c) (x2 m c) (x3 m c) (x4 m c) (x5 m c) (x6 m c) (x7 m c) :=
  (W10_arr m ρ c 5).trans (Layer3.result (V9 m ρ) _ (val_main_v10 (F := Ideal) (x2 m c)) (val_main_v8 (F := Ideal) (x1 m c)) (x6 m c) (x7 m c) _ c
    (agg2 m ρ c) (static9 m ρ c).nd (static9 m ρ c).ns (static9 m ρ c).b2 (static9 m ρ c).w3
    (fun r q => Cert.ReferenceIdeal.Stages.dense3_apply _ _ _ _ _ _ _ _ r q))

theorem agg3 : W11 m ρ c (Proc.devRef .tc main_v53) = val_main_v66 (F := Ideal) (x0 m c) (x1 m c) (x2 m c) (x3 m c) (x4 m c) (x5 m c) (x6 m c) (x7 m c) := by
  show StableHlo.after hostOps3 (W10 m ρ c) (Proc.devRef .tc main_v53) = _
  after_results_simp
  rw [dense3 m ρ c, (static10 m ρ c).src, (static10 m ρ c).dst]
  rfl

theorem dense4 : W12 m ρ c (Proc.devRef .tc main_v54) = val_main_v77 (F := Ideal) (x0 m c) (x1 m c) (x2 m c) (x3 m c) (x4 m c) (x5 m c) (x6 m c) (x7 m c) (x8 m c) (x9 m c) :=
  (W12_arr m ρ c 5).trans (Layer4.result (V11 m ρ) _ (val_main_v10 (F := Ideal) (x2 m c)) (val_main_v8 (F := Ideal) (x1 m c)) (x8 m c) (x9 m c) _ c
    (agg3 m ρ c) (static11 m ρ c).nd (static11 m ρ c).ns (static11 m ρ c).b3 (static11 m ρ c).w4
    (fun r q => Cert.ReferenceIdeal.Stages.dense4_apply _ _ _ _ _ _ _ _ _ _ r q))

theorem agg4 : W13 m ρ c (Proc.devRef .tc main_v64) = val_main_v87 (F := Ideal) (x0 m c) (x1 m c) (x2 m c) (x3 m c) (x4 m c) (x5 m c) (x6 m c) (x7 m c) (x8 m c) (x9 m c) := by
  show StableHlo.after hostOps4 (W12 m ρ c) (Proc.devRef .tc main_v64) = _
  after_results_simp
  rw [dense4 m ρ c, (static12 m ρ c).src, (static12 m ρ c).dst]
  rfl

/-- The last launch leaves the reference's result. -/
theorem result : W14 m ρ c (Proc.devRef .tc main_v65) = val_main_v93 (F := Ideal) (x0 m c) (x1 m c) (x2 m c) (x3 m c) (x4 m c) (x5 m c) (x6 m c) (x7 m c) (x8 m c) (x9 m c) (x10 m c) :=
  (W14_arr m ρ c 3).trans (Layer5.result (V13 m ρ) _ (val_main_v10 (F := Ideal) (x2 m c)) (x10 m c) _ c
    (agg4 m ρ c) (static13 m ρ c).nd (static13 m ρ c).b4
    (fun r q => Cert.ReferenceIdeal.Stages.final_apply _ _ _ _ _ _ _ _ _ _ _ r q))

/-! ## The run -/

/-- Every weakly fair execution of the idealized kernel terminates, nothing faulting, with the result buffer at the
    reference's last stage of the arguments and the arguments as launched. -/
theorem run : θ_run defs (onTc (τ := τ) (main (F := Ideal))) ⟨m, fun _ => 0, ρ⟩ (fun r => ∀ c : Dev nD,
      r.2.mem ((c.tc : Thread nD τ).loc main_v65) = val_main_v93 (F := Ideal) (x0 m c) (x1 m c) (x2 m c) (x3 m c) (x4 m c) (x5 m c) (x6 m c) (x7 m c) (x8 m c) (x9 m c) (x10 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result m ρ c), (h c).2⟩) (Named.run m ρ)

end Cert.KernelIdeal.Chain

end
-- ==== Proof.lean ====
/-
  The certificate of the stacked graph convolution: four layers of `D_dst^(-1/2) · A · (D_src^(-1/2) · x · W) + b`,
  a clamp below at zero between them.

  The kernel computes each layer's dense part in a launch tiled over ten blocks of ten thousand nodes and leaves the
  gather by source and scatter-add by destination to host operations; the reference does the same steps untiled.  At
  the exact values a change of float format is the identity and a matrix product into the zero accumulator is the
  plain sum over the contracted axis, and every row of a dense stage depends on that row of its operands only, so
  each launch leaves exactly the reference's stage (Proof/Layer1 … Layer5 over Proof/Payload and Proof/RefStages), and
  the aggregations between them are the same operations on the same operands (Proof/Chain).  The three frames are
  the programs' runs with the result dropped; the idealization rewrote nothing.
-/
import proofs.«169862_j32014686224952_1_alg».proof.Defs
import proofs.«169862_j32014686224952_1_alg».proof.Proof.Gen.Kernel
import proofs.«169862_j32014686224952_1_alg».proof.Proof.Gen.Kernel.Frame
import proofs.«169862_j32014686224952_1_alg».proof.Proof.Gen.KernelIdeal
import proofs.«169862_j32014686224952_1_alg».proof.Proof.Gen.KernelIdeal.Frame
import proofs.«169862_j32014686224952_1_alg».proof.Proof.Gen.ReferenceIdeal
import proofs.«169862_j32014686224952_1_alg».proof.Proof.Gen.ReferenceIdeal.Run
import proofs.«169862_j32014686224952_1_alg».proof.Proof.Gen.ReferenceIdeal.Read
import proofs.«169862_j32014686224952_1_alg».proof.Proof.Gen.Pre_finite_inputs
import proofs.«169862_j32014686224952_1_alg».proof.Proof.Chain
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The reference's run with its result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end at the reference's last stage of the arguments: the kernel by the chain of its launches and
    stretches, the reference by its own run; the arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v93 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Chain.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v93_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
